-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S128 .f32) (main_arg6 : FVec F S128x10 .f32) (main_arg7 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg6
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S1x10 : Shape := ⟨2, ![1, 10]⟩
abbrev S50000x10 : Shape := ⟨2, ![50000, 10]⟩
abbrev S2000x10 : Shape := ⟨2, ![2000, 10]⟩
abbrev S2000 : Shape := ⟨1, ![2000]⟩
abbrev S2000x1 : Shape := ⟨2, ![2000, 1]⟩

abbrev nBuf : Space → Nat
  | .hbm => 107
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000, .f32⟩
  | .hbm, ⟨86, _⟩ => ⟨S850000, .f32⟩
  | .hbm, ⟨87, _⟩ => ⟨S_, .i32⟩
  | .hbm, ⟨88, _⟩ => ⟨S850000, .i32⟩
  | .hbm, ⟨89, _⟩ => ⟨S850000, .i1⟩
  | .hbm, ⟨90, _⟩ => ⟨S_, .i32⟩
  | .hbm, ⟨91, _⟩ => ⟨S850000, .i32⟩
  | .hbm, ⟨92, _⟩ => ⟨S850000, .i32⟩
  | .hbm, ⟨93, _⟩ => ⟨S850000, .i32⟩
  | .hbm, ⟨94, _⟩ => ⟨S850000x1, .i32⟩
  | .hbm, ⟨95, _⟩ => ⟨S850000x128, .f32⟩
  | .hbm, ⟨96, _⟩ => ⟨S850000x1, .f32⟩
  | .hbm, ⟨97, _⟩ => ⟨S850000x128, .f32⟩
  | .hbm, ⟨98, _⟩ => ⟨S850000x128, .f32⟩
  | .hbm, ⟨99, _⟩ => ⟨S_, .f32⟩
  | .hbm, ⟨100, _⟩ => ⟨S50000x128, .f32⟩
  | .hbm, ⟨101, _⟩ => ⟨S850000x1, .i32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S1x10, .f32⟩
  | .hbm, ⟨106, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x10, .f32⟩
  | .local _ .vmem, ⟨23, _⟩ => ⟨S1x10, .f32⟩
  | .local _ .vmem, ⟨24, _⟩ => ⟨S2000x10, .f32⟩
  | .local _ .vmem, ⟨25, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  reduces_S2000x10_S2000 : S2000x10.Reduces [1] S2000
  shapeCasts_S2000_S2000x1 : S2000.ShapeCasts S2000x1
  broadcasts_S2000x1_S2000x10 : S2000x1.Broadcasts S2000x10
  inb_S2000x10_S2000x10_0_0 : ∀ a, (![0, 0] : Fin 2 → Nat) a + S2000x10.size a ≤ S2000x10.size a
  h_S2000x10 : 0 < S2000x10.numel
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x10.size a ≤ S50000x10.size a
  hwx4_3 : ∀ i : grid4.Coords, EltTy.bits .f32 = 32 ∨ (Rect.block (s := S50000x10) S2000x10.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v78) S2000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x10 : Shape := ⟨2, ![50000, 10]⟩
abbrev S1x10 : Shape := ⟨2, ![1, 10]⟩
abbrev S50000x1 : Shape := ⟨2, ![50000, 1]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x10, .f32⟩
  | 7 => ⟨S10, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .f32⟩
  | 58 => ⟨S850000x1, .f32⟩
  | 59 => ⟨S850000x128, .f32⟩
  | 60 => ⟨S850000x128, .f32⟩
  | 61 => ⟨S_, .f32⟩
  | 62 => ⟨S50000x128, .f32⟩
  | 63 => ⟨S850000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S850000, .f32⟩
  | 77 => ⟨S_, .f32⟩
  | 78 => ⟨S50000, .f32⟩
  | 79 => ⟨S850000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x1, .f32⟩
  | 118 => ⟨S850000x128, .f32⟩
  | 119 => ⟨S850000x128, .f32⟩
  | 120 => ⟨S_, .f32⟩
  | 121 => ⟨S50000x128, .f32⟩
  | 122 => ⟨S850000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x10, .f32⟩
  | 3 => ⟨S1x10, .f32⟩
  | 4 => ⟨S50000x10, .f32⟩
  | 5 => ⟨S50000x10, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x10, .f32⟩
  | 13 => ⟨S50000x10, .f32⟩
  | 14 => ⟨S50000x10, .f32⟩
  | 15 => ⟨S_, .f32⟩
  | 16 => ⟨S50000, .f32⟩
  | 17 => ⟨S50000x1, .f32⟩
  | 18 => ⟨S50000x1, .f32⟩
  | 19 => ⟨S50000x10, .f32⟩
  | 20 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_9 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_call3_cst : Ref sig .tc := ⟨.hbm, 127, rfl⟩
abbrev main_call3_v0 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_call4_cst : Ref sig .tc := ⟨.hbm, 134, rfl⟩
abbrev main_call4_v0 : Ref sig .tc := ⟨.hbm, 135, rfl⟩
abbrev main_call4_cst_0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_cst_1 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_v96 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  h_S_ : 0 < S_.numel
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x10_S50000x10_1_0_0_1_n_n_wf : DotDims.WF S50000x128 S128x10 S50000x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KRun.lean ====
/-
  The idealized kernel program runs, and where its result ends.

  The program is ten segments: five launches of a tiled kernel over 25 blocks of 2000 rows, among stretches of host
  operations. Every weakly fair execution terminates without a fault; the arguments end as launched; and the result
  buffer ends at the contents the last boundary's fold assigns it: the last launch's output array after its 25
  write-backs. The statement is the frame's, with that one equation more, and it is proved the same way: the launch
  theorem over the ten segments, the last thread state read against the final memory.
-/
import proofs.«129509_j463856468484_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument as launched. -/
theorem run_named : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunNamed

end
-- ==== Proof.Staged.lean ====
/-
  The reference network, stage by stage, as functions of arrays.

  The reference applies, in this order: the matrix product with the first weight matrix; the aggregation along the
  edges (gather the rows at the edges' sources, scale each by the product of the two end points' inverse square-root
  degrees, add up at the edges' targets — `aggT`, a function of the two index vectors, the inverse square-root degrees
  and the array aggregated); the bias and the clipping at zero (`brT`); all three once more with the second weight
  matrix and bias; and the head (`headT`: last matrix product, bias, logarithm of the softmax of each row). The index
  vectors (`src2T`, `dst2T`: the edge list followed by one loop per node) and the inverse square-root degrees (`dinvT`)
  depend on the edge array alone. `out` is their composition: the whole network as one function of the eight arguments.
  Each stage is spelt with the host operations the reference program itself applies.
-/
import proofs.«129509_j463856468484_1_alg».proof.Proof.Gen.ReferenceIdeal

noncomputable section

namespace Cert.ReferenceIdeal.Staged

open Cert.ReferenceIdeal Cert.ReferenceIdeal.Gen Idealize.ShloMosaic Idealize.ShloMosaic.TcCoe Idealize.SL.Sem Idealize.ShloMosaic.StableHlo

variable {F : FTy → Type} [FloatOps F]

/-- The edges' sources followed by the nodes themselves (one loop per node). -/
def src2T (e : (⟨S2x800000, .i32⟩ : BufTy).Contents (Elt F)) : (⟨S850000, .i32⟩ : BufTy).Contents (Elt F) :=
  (concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0)

/-- The edges' targets followed by the nodes themselves. -/
def dst2T (e : (⟨S2x800000, .i32⟩ : BufTy).Contents (Elt F)) : (⟨S850000, .i32⟩ : BufTy).Contents (Elt F) :=
  (concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0)

/-- The inverse square root of each node's in-degree (loops counted), zero where the degree is not positive. -/
def dinvT (d2 : (⟨S850000, .i32⟩ : BufTy).Contents (Elt F)) : (⟨S50000, .f32⟩ : BufTy).Contents (Elt F) :=
  (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 d2) (broadcastInDim S850000 ![] bcast_S_S850000 (constant S_ .f32 0x3F800000#32))) (broadcastInDim S50000 ![] bcast_S_S50000 (constant S_ .f32 0x00000000#32))) (Host.rsqrt (Host.scatterAdd scatter_S50000_S850000x1_S850000_n_0_0_1 (broadcastInDim S50000 ![] bcast_S_S50000 (constant S_ .f32 0x00000000#32)) (broadcastInDim S850000x1 ![0] bcast_S850000_S850000x1_0 d2) (broadcastInDim S850000 ![] bcast_S_S850000 (constant S_ .f32 0x3F800000#32)))) (broadcastInDim S50000 ![] bcast_S_S50000 (id (constant S_ .f32 0x00000000#32))))

/-- The aggregation along the edges of an array of node features. -/
def aggT (s2 d2 : (⟨S850000, .i32⟩ : BufTy).Contents (Elt F)) (dv : (⟨S50000, .f32⟩ : BufTy).Contents (Elt F))
    (h : (⟨S50000x128, .f32⟩ : BufTy).Contents (Elt F)) : (⟨S50000x128, .f32⟩ : BufTy).Contents (Elt F) :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 d2) (mulf (Host.gather gather_S50000x128_S850000x1_S850000x128_1_0_n_n_0_1_1128 h (broadcastInDim S850000x1 ![0] bcast_S850000_S850000x1_0 (select (cmpi .slt s2 (broadcastInDim S850000 ![] bcast_S_S850000 (constantI S_ 32 0#32))) (addi s2 (broadcastInDim S850000 ![] bcast_S_S850000 (constantI S_ 32 50000#32))) s2))) (broadcastInDim S850000x128 ![0, 1] bcast_S850000x1_S850000x128_0_1 (broadcastInDim S850000x1 ![0] bcast_S850000_S850000x1_0 (mulf (Host.gather gather_S50000_S850000x1_S850000_n_0_n_n_0_1_1 dv (broadcastInDim S850000x1 ![0] bcast_S850000_S850000x1_0 (select (cmpi .slt s2 (broadcastInDim S850000 ![] bcast_S_S850000 (constantI S_ 32 0#32))) (addi s2 (broadcastInDim S850000 ![] bcast_S_S850000 (constantI S_ 32 50000#32))) s2))) (Host.gather gather_S50000_S850000x1_S850000_n_0_n_n_0_1_1 dv (broadcastInDim S850000x1 ![0] bcast_S850000_S850000x1_0 (select (cmpi .slt d2 (broadcastInDim S850000 ![] bcast_S_S850000 (constantI S_ 32 0#32))) (addi d2 (broadcastInDim S850000 ![] bcast_S_S850000 (constantI S_ 32 50000#32))) d2))))))))

/-- The product of the node features with a 128 × 128 weight matrix. -/
def dotT (l : (⟨S50000x128, .f32⟩ : BufTy).Contents (Elt F)) (r : (⟨S128x128, .f32⟩ : BufTy).Contents (Elt F)) :
    (⟨S50000x128, .f32⟩ : BufTy).Contents (Elt F) :=
  Host.dotGeneral dot_S50000x128_S128x128_S50000x128_1_0_0_1_n_n none l r

/-- A bias added to every row, then the clipping at zero. -/
def brT (x : (⟨S50000x128, .f32⟩ : BufTy).Contents (Elt F)) (b : (⟨S128, .f32⟩ : BufTy).Contents (Elt F)) :
    (⟨S50000x128, .f32⟩ : BufTy).Contents (Elt F) :=
  (maximumf (addf x (broadcastInDim S50000x128 ![0, 1] bcast_S1x128_S50000x128_0_1 (broadcastInDim S1x128 ![1] bcast_S128_S1x128_1 b))) (broadcastInDim S50000x128 ![] bcast_S_S50000x128 (constant S_ .f32 0x00000000#32)))

/-- The head: the product with the 128 × 10 matrix, the bias, and the logarithm of the softmax of each row. -/
def headT (x : (⟨S50000x128, .f32⟩ : BufTy).Contents (Elt F)) (w : (⟨S128x10, .f32⟩ : BufTy).Contents (Elt F))
    (b : (⟨S10, .f32⟩ : BufTy).Contents (Elt F)) : (⟨S50000x10, .f32⟩ : BufTy).Contents (Elt F) :=
  subf (subf (addf (Host.dotGeneral dot_S50000x128_S128x10_S50000x10_1_0_0_1_n_n none x w) (broadcastInDim S50000x10 ![0, 1] bcast_S1x10_S50000x10_0_1 (broadcastInDim S1x10 ![1] bcast_S10_S1x10_1 b))) (broadcastInDim S50000x10 ![0, 1] bcast_S50000x1_S50000x10_0_1 (broadcastInDim S50000x1 ![0] bcast_S50000_S50000x1_0 (maximumf (broadcastInDim S50000 ![] bcast_S_S50000 (constant S_ .f32 0xFF800000#32)) (Host.reduce FloatOps.maximumf (addf (Host.dotGeneral dot_S50000x128_S128x10_S50000x10_1_0_0_1_n_n none x w) (broadcastInDim S50000x10 ![0, 1] bcast_S1x10_S50000x10_0_1 (broadcastInDim S1x10 ![1] bcast_S10_S1x10_1 b))) (constant S_ .f32 0xFF800000#32) reducesTo_S50000x10_S50000_d1 h_S_))))) (broadcastInDim S50000x10 ![0, 1] bcast_S50000x1_S50000x10_0_1 (Host.log (broadcastInDim S50000x1 ![0] bcast_S50000_S50000x1_0 (Host.reduceAdd (Host.exp (subf (addf (Host.dotGeneral dot_S50000x128_S128x10_S50000x10_1_0_0_1_n_n none x w) (broadcastInDim S50000x10 ![0, 1] bcast_S1x10_S50000x10_0_1 (broadcastInDim S1x10 ![1] bcast_S10_S1x10_1 b))) (broadcastInDim S50000x10 ![0, 1] bcast_S50000x1_S50000x10_0_1 (broadcastInDim S50000x1 ![0] bcast_S50000_S50000x1_0 (maximumf (broadcastInDim S50000 ![] bcast_S_S50000 (constant S_ .f32 0xFF800000#32)) (Host.reduce FloatOps.maximumf (addf (Host.dotGeneral dot_S50000x128_S128x10_S50000x10_1_0_0_1_n_n none x w) (broadcastInDim S50000x10 ![0, 1] bcast_S1x10_S50000x10_0_1 (broadcastInDim S1x10 ![1] bcast_S10_S1x10_1 b))) (constant S_ .f32 0xFF800000#32) reducesTo_S50000x10_S50000_d1 h_S_)))))) (constant S_ .f32 0x00000000#32) reducesTo_S50000x10_S50000_d1 h_S_))))

/-- One graph-convolution layer: product, aggregation, bias, clipping. -/
def layerT (e : (⟨S2x800000, .i32⟩ : BufTy).Contents (Elt F)) (x : (⟨S50000x128, .f32⟩ : BufTy).Contents (Elt F))
    (w : (⟨S128x128, .f32⟩ : BufTy).Contents (Elt F)) (b : (⟨S128, .f32⟩ : BufTy).Contents (Elt F)) :
    (⟨S50000x128, .f32⟩ : BufTy).Contents (Elt F) :=
  brT (aggT (src2T e) (dst2T e) (dinvT (dst2T e)) (dotT x w)) b

/-- The whole network as a function of its eight arguments. -/
def out (a0 : (⟨S50000x128, .f32⟩ : BufTy).Contents (Elt F)) (e : (⟨S2x800000, .i32⟩ : BufTy).Contents (Elt F))
    (a2 : (⟨S128x128, .f32⟩ : BufTy).Contents (Elt F)) (a3 : (⟨S128, .f32⟩ : BufTy).Contents (Elt F))
    (a4 : (⟨S128x128, .f32⟩ : BufTy).Contents (Elt F)) (a5 : (⟨S128, .f32⟩ : BufTy).Contents (Elt F))
    (a6 : (⟨S128x10, .f32⟩ : BufTy).Contents (Elt F)) (a7 : (⟨S10, .f32⟩ : BufTy).Contents (Elt F)) :
    (⟨S50000x10, .f32⟩ : BufTy).Contents (Elt F) :=
  headT (layerT e (layerT e a0 a2 a3) a4 a5) a6 a7

end Cert.ReferenceIdeal.Staged

end
-- ==== Proof.KHost.lean ====
/-
  The host operations between the regions, read for an arbitrary contents `W` of the buffers they start from.

  Before the first product the program builds, from the edge array, the two index vectors (the edges' sources and targets,
  each followed by one loop per node) and the inverse square-root degrees; before each bias-and-clipping region it
  aggregates the preceding product along the edges (gather at the sources, scale by the two end points' inverse square-root
  degrees, add up at the targets) and recasts the bias vector as a one-row matrix; before the head it recasts the last bias
  vector likewise. Each of these results is stated as the staged function (`src2T`, `dst2T`, `aggT`) of what the
  buffers it reads hold; a one-row matrix recast from a vector has at (0, j) the vector's entry j; and every buffer that a
  later step reads and these operations do not write holds afterwards what it held before.
-/
import proofs.«129509_j463856468484_1_alg».proof.Proof.Gen.KernelIdeal.Launch
import proofs.«129509_j463856468484_1_alg».proof.Proof.Staged
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostStretch

open Cert.KernelIdeal Cert.KernelIdeal.Gen Idealize.ShloMosaic Idealize.ShloMosaic.TcCoe Idealize.SL.Sem Idealize.ShloMosaic.StableHlo
open Idealize.ShloMosaic.ValueIdx
open Cert.ReferenceIdeal.Staged

variable (W : Valuation τ sig (Elt Ideal))

/-! ## Before the first product: the index vectors, and what is kept -/

/-- The edges' sources followed by the nodes themselves. -/
theorem v5_of : after hostOps0_1 (after hostOps0 W) (Proc.devRef .tc main_v5) = src2T (F := Ideal) (W (Proc.devRef .tc main_arg1)) := by
  unfold hostOps0 hostOps0_1; after_results_simp; rfl

/-- The edges' targets followed by the nodes themselves. -/
theorem v6_of : after hostOps0_1 (after hostOps0 W) (Proc.devRef .tc main_v6) = dst2T (F := Ideal) (W (Proc.devRef .tc main_arg1)) := by
  unfold hostOps0 hostOps0_1; after_results_simp; rfl

/-- The node features, the weight matrices and the bias vectors are not written. -/
theorem kept01_arg0 : after hostOps0_1 (after hostOps0 W) (Proc.devRef .tc main_arg0) = W (Proc.devRef .tc main_arg0) := by
  unfold hostOps0 hostOps0_1; after_results_simp
theorem kept01_arg2 : after hostOps0_1 (after hostOps0 W) (Proc.devRef .tc main_arg2) = W (Proc.devRef .tc main_arg2) := by
  unfold hostOps0 hostOps0_1; after_results_simp
theorem kept01_arg3 : after hostOps0_1 (after hostOps0 W) (Proc.devRef .tc main_arg3) = W (Proc.devRef .tc main_arg3) := by
  unfold hostOps0 hostOps0_1; after_results_simp
theorem kept01_arg4 : after hostOps0_1 (after hostOps0 W) (Proc.devRef .tc main_arg4) = W (Proc.devRef .tc main_arg4) := by
  unfold hostOps0 hostOps0_1; after_results_simp
theorem kept01_arg5 : after hostOps0_1 (after hostOps0 W) (Proc.devRef .tc main_arg5) = W (Proc.devRef .tc main_arg5) := by
  unfold hostOps0 hostOps0_1; after_results_simp
theorem kept01_arg6 : after hostOps0_1 (after hostOps0 W) (Proc.devRef .tc main_arg6) = W (Proc.devRef .tc main_arg6) := by
  unfold hostOps0 hostOps0_1; after_results_simp
theorem kept01_arg7 : after hostOps0_1 (after hostOps0 W) (Proc.devRef .tc main_arg7) = W (Proc.devRef .tc main_arg7) := by
  unfold hostOps0 hostOps0_1; after_results_simp

/-! ## Before the first bias and clipping: the aggregated product, the bias as a row, and what is kept -/

/-- The first product aggregated along the edges. -/
theorem v43_of : after hostOps1 W (Proc.devRef .tc main_v43)
    = aggT (F := Ideal) (W (Proc.devRef .tc main_v5)) (W (Proc.devRef .tc main_v6)) (W (Proc.devRef .tc main_v14)) (W (Proc.devRef .tc main_v15)) := by
  unfold hostOps1; after_results_simp; rfl

/-- The first bias vector as a one-row matrix: entry (0, j) is the vector's entry j. -/
theorem v44_at (j : Fin 128) : after hostOps1 W (Proc.devRef .tc main_v44) (ix2 0 j) = W (Proc.devRef .tc main_arg3) (ix1 j) := by
  unfold hostOps1; after_results_simp
  exact shapeCast_a_1a_apply _ _ 0 j

/-- The index vectors, the inverse square-root degrees and the later weights and biases are not written. -/
theorem kept1_v5 : after hostOps1 W (Proc.devRef .tc main_v5) = W (Proc.devRef .tc main_v5) := by
  unfold hostOps1; after_results_simp
theorem kept1_v6 : after hostOps1 W (Proc.devRef .tc main_v6) = W (Proc.devRef .tc main_v6) := by
  unfold hostOps1; after_results_simp
theorem kept1_v14 : after hostOps1 W (Proc.devRef .tc main_v14) = W (Proc.devRef .tc main_v14) := by
  unfold hostOps1; after_results_simp
theorem kept1_arg4 : after hostOps1 W (Proc.devRef .tc main_arg4) = W (Proc.devRef .tc main_arg4) := by
  unfold hostOps1; after_results_simp
theorem kept1_arg5 : after hostOps1 W (Proc.devRef .tc main_arg5) = W (Proc.devRef .tc main_arg5) := by
  unfold hostOps1; after_results_simp
theorem kept1_arg6 : after hostOps1 W (Proc.devRef .tc main_arg6) = W (Proc.devRef .tc main_arg6) := by
  unfold hostOps1; after_results_simp
theorem kept1_arg7 : after hostOps1 W (Proc.devRef .tc main_arg7) = W (Proc.devRef .tc main_arg7) := by
  unfold hostOps1; after_results_simp

/-! ## Before the second bias and clipping: the same with the second product and the second bias -/

/-- The second product aggregated along the edges. -/
theorem v74_of : after hostOps3 W (Proc.devRef .tc main_v74)
    = aggT (F := Ideal) (W (Proc.devRef .tc main_v5)) (W (Proc.devRef .tc main_v6)) (W (Proc.devRef .tc main_v14)) (W (Proc.devRef .tc main_v46)) := by
  unfold hostOps3; after_results_simp; rfl

/-- The second bias vector as a one-row matrix: entry (0, j) is the vector's entry j. -/
theorem v75_at (j : Fin 128) : after hostOps3 W (Proc.devRef .tc main_v75) (ix2 0 j) = W (Proc.devRef .tc main_arg5) (ix1 j) := by
  unfold hostOps3; after_results_simp
  exact shapeCast_a_1a_apply _ _ 0 j

/-- The head's weight matrix and bias vector are not written. -/
theorem kept3_arg6 : after hostOps3 W (Proc.devRef .tc main_arg6) = W (Proc.devRef .tc main_arg6) := by
  unfold hostOps3; after_results_simp
theorem kept3_arg7 : after hostOps3 W (Proc.devRef .tc main_arg7) = W (Proc.devRef .tc main_arg7) := by
  unfold hostOps3; after_results_simp

/-! ## Before the head: the last bias as a row, and what is kept -/

/-- The head's bias vector as a one-row matrix: entry (0, j) is the vector's entry j. -/
theorem v77_at (j : Fin 10) : after hostOps4 W (Proc.devRef .tc main_v77) (ix2 0 j) = W (Proc.devRef .tc main_arg7) (ix1 j) := by
  unfold hostOps4; after_results_simp
  exact shapeCast_a_1a_apply _ _ 0 j

/-- The second layer's output and the head's weight matrix are not written. -/
theorem kept4_v76 : after hostOps4 W (Proc.devRef .tc main_v76) = W (Proc.devRef .tc main_v76) := by
  unfold hostOps4; after_results_simp
theorem kept4_arg6 : after hostOps4 W (Proc.devRef .tc main_arg6) = W (Proc.devRef .tc main_arg6) := by
  unfold hostOps4; after_results_simp

end Cert.KernelIdeal.HostStretch

end
-- ==== Proof.KHost14.lean ====
/-
  The inverse square-root degrees, as the kernel program's first two host stretches leave them, are the staged function of the
  edge array. The degree of a node is the number of edges (one loop per node included) that end at it: ones scattered and
  added at the targets; its inverse square root is taken where the degree is positive, zero elsewhere. The first stretch is cut
  after the two index vectors are formed, so that the degrees are read as a function of the vector of targets. The three
  operations of the selection carry their values to each buffer's own type and back; at each of the six buffers involved that
  transport is the identity.
-/
import proofs.«129509_j463856468484_1_alg».proof.Proof.Gen.KernelIdeal.Launch
import proofs.«129509_j463856468484_1_alg».proof.Proof.Staged
import Idealize.ShloMosaic.Lib.StableHlo.Run
import Idealize.ShloMosaic.PureOps.Ideal

set_option maxRecDepth 16384
noncomputable section
namespace Cert.KernelIdeal.HostStretch
open Cert.KernelIdeal Cert.KernelIdeal.Gen Idealize.ShloMosaic Idealize.ShloMosaic.TcCoe Idealize.SL.Sem Idealize.ShloMosaic.StableHlo
open Cert.ReferenceIdeal.Staged

/-! ## A value carried to a buffer's own type, or back, is itself -/

theorem toBuf_v14 (h1 : main_v14.ty = ⟨S50000, .f32⟩) (h2 h3) (u : (⟨S50000, .f32⟩ : BufTy).Contents (Elt Ideal)) :
    ((TRef.of main_v14 h1 h2 h3 : TRef sig ⟨S50000, .f32⟩).toBuf u : (⟨S50000, .f32⟩ : BufTy).Contents (Elt Ideal)) = u := rfl

theorem ofBuf_v12 (h1 : main_v12.ty = ⟨S50000, .i1⟩) (h2 h3) (u : (⟨S50000, .i1⟩ : BufTy).Contents (Elt Ideal)) :
    (TRef.of main_v12 h1 h2 h3 : TRef sig ⟨S50000, .i1⟩).ofBuf u = u := rfl

theorem ofBuf_v13 (h1 : main_v13.ty = ⟨S50000, .f32⟩) (h2 h3) (u : (⟨S50000, .f32⟩ : BufTy).Contents (Elt Ideal)) :
    (TRef.of main_v13 h1 h2 h3 : TRef sig ⟨S50000, .f32⟩).ofBuf u = u := rfl

theorem ofBuf_c1 (h1 : main_call0_v1.ty = ⟨S50000, .f32⟩) (h2 h3) (u : (⟨S50000, .f32⟩ : BufTy).Contents (Elt Ideal)) :
    (TRef.of main_call0_v1 h1 h2 h3 : TRef sig ⟨S50000, .f32⟩).ofBuf u = u := rfl

theorem toBuf_c1 (h1 : main_call0_v1.ty = ⟨S50000, .f32⟩) (h2 h3) (u : (⟨S50000, .f32⟩ : BufTy).Contents (Elt Ideal)) :
    ((TRef.of main_call0_v1 h1 h2 h3 : TRef sig ⟨S50000, .f32⟩).toBuf u : (⟨S50000, .f32⟩ : BufTy).Contents (Elt Ideal)) = u := rfl

theorem ofBuf_c0 (h1 : main_call0_v0.ty = ⟨S_, .f32⟩) (h2 h3) (u : (⟨S_, .f32⟩ : BufTy).Contents (Elt Ideal)) :
    (TRef.of main_call0_v0 h1 h2 h3 : TRef sig ⟨S_, .f32⟩).ofBuf u = u := rfl

theorem toBuf_c0 (h1 : main_call0_v0.ty = ⟨S_, .f32⟩) (h2 h3) (u : (⟨S_, .f32⟩ : BufTy).Contents (Elt Ideal)) :
    ((TRef.of main_call0_v0 h1 h2 h3 : TRef sig ⟨S_, .f32⟩).toBuf u : (⟨S_, .f32⟩ : BufTy).Contents (Elt Ideal)) = u := rfl

theorem ofBuf_cst2 (h1 : main_cst_2.ty = ⟨S_, .f32⟩) (h2 h3) (u : (⟨S_, .f32⟩ : BufTy).Contents (Elt Ideal)) :
    (TRef.of main_cst_2 h1 h2 h3 : TRef sig ⟨S_, .f32⟩).ofBuf u = u := rfl

variable {F : FTy → Type} [FloatOps F]

/-! ## The first stretch in two parts -/

/-- Its first seven operations: the two rows of the edge array, the nodes' own indices, and the two index vectors
    (sources and targets, each followed by one loop per node). -/
abbrev opsIndex : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Its other eleven operations: ones scattered and added at the targets (the degrees), their sign test, their inverse
    square root, and the zero the selection falls back on. -/
abbrev opsDegree : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

theorem hostOps0_eq : (hostOps0 : List (HloOp τ sig (Elt F))) = opsIndex ++ opsDegree := rfl

/-- Operations run one list after another are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (W : Valuation τ sig (Elt Ideal))

/-- The vector of targets after the first seven operations. -/
theorem targets_of : after opsIndex W (Proc.devRef .tc main_v6) = dst2T (F := Ideal) (W (Proc.devRef .tc main_arg1)) := by
  unfold opsIndex
  after_results_simp
  rfl

/-- The inverse square-root degrees as a function of the vector of targets. -/
theorem degrees_of : after hostOps0_1 (after opsDegree W) (Proc.devRef .tc main_v14) = dinvT (F := Ideal) (W (Proc.devRef .tc main_v6)) := by
  unfold opsDegree hostOps0_1
  after_results_simp
  rw [toBuf_v14, ofBuf_v12, ofBuf_v13, ofBuf_c1, toBuf_c1, ofBuf_c0, toBuf_c0, ofBuf_cst2]
  rfl

/-- The inverse square-root degrees after the first two stretches, as a function of the edge array. -/
theorem v14_of : after hostOps0_1 (after hostOps0 W) (Proc.devRef .tc main_v14)
    = dinvT (F := Ideal) (dst2T (F := Ideal) (W (Proc.devRef .tc main_arg1))) := by
  rw [hostOps0_eq, after_append, degrees_of, targets_of]

end Cert.KernelIdeal.HostStretch
end
-- ==== Proof.Spec.lean ====
/-
  What the network computes, entry by entry, over the extended reals.

  A graph-convolution layer multiplies the node features by a weight matrix, mixes the rows along the edges, adds a bias
  and clips at zero; the head multiplies by a last matrix, adds a bias and takes the logarithm of the softmax of each
  row. The three dense pieces are stated here as functions of a row `r` and a column `j`:

  * `matProd x w r j`   — the entry (r, j) of the product x · w: the sum over the 128 inner coordinates;
  * `biasRelu x b r j`  — max (x (r, j) + b j) 0;
  * `head x w b r j`    — with logits l j' = (x · w) (r, j') + b j', the value (l j − M) − log (∑ j', exp (l j' − M)),
                          M the largest logit of the row (a fold of `max` from −∞).

  `arr2` reads a function of (row, column) as an array over rank-2 indices.
-/
import Idealize.ShloMosaic.PureOps.Ideal
import Idealize.ShloMosaic.Lib.ValueIdx

noncomputable section

open scoped BigOperators

namespace Cert.Spec

open Idealize.ShloMosaic Idealize.ShloMosaic.ValueIdx

/-- A function of a row and a column, read as an array over rank-2 indices. -/
def arr2 {n0 n1 : Nat} (f : Fin n0 → Fin n1 → EReal) : (⟨2, ![n0, n1]⟩ : Shape).Idx → EReal :=
  fun i => f ⟨(i 0).val, idx2_lt0 i⟩ ⟨(i 1).val, idx2_lt1 i⟩

theorem arr2_ix2 {n0 n1 : Nat} (f : Fin n0 → Fin n1 → EReal) (r : Fin n0) (j : Fin n1) : arr2 f (ix2 r j) = f r j := rfl

/-- Entry (r, j) of the product of a 50000 × 128 array with a 128 × n matrix. -/
def matProd {n : Nat} (x : (⟨2, ![50000, 128]⟩ : Shape).Idx → EReal) (w : (⟨2, ![128, n]⟩ : Shape).Idx → EReal)
    (r : Fin 50000) (j : Fin n) : EReal :=
  ∑ k : Fin 128, x (ix2 r k) * w (ix2 k j)

/-- Entry (r, j) of a row-wise bias followed by clipping at zero. -/
def biasRelu (x : (⟨2, ![50000, 128]⟩ : Shape).Idx → EReal) (b : Fin 128 → EReal) (r : Fin 50000) (j : Fin 128) : EReal :=
  max (x (ix2 r j) + b j) 0

/-- The largest of ten logits: the fold of `max` from −∞ (the f32 word of −∞ read as an extended real). -/
def rowMax (l : Fin 10 → EReal) : EReal :=
  (Finset.univ : Finset (Fin 10)).fold max (Ideal.ofBits .f32 0xFF800000#32) l

/-- The logarithm of the softmax of ten logits, at coordinate j, computed with the row's maximum subtracted first. -/
def logSoftmaxRow (l : Fin 10 → EReal) (j : Fin 10) : EReal :=
  (l j - rowMax l) - Ideal.log (∑ j' : Fin 10, Ideal.exp (l j' - rowMax l))

/-- Entry (r, j) of the head: logits (x · w) (r, ·) + b, then the logarithm of their softmax. -/
def head (x : (⟨2, ![50000, 128]⟩ : Shape).Idx → EReal) (w : (⟨2, ![128, 10]⟩ : Shape).Idx → EReal) (b : Fin 10 → EReal)
    (r : Fin 50000) (j : Fin 10) : EReal :=
  logSoftmaxRow (fun j' => matProd x w r j' + b j') j

end Cert.Spec

end
-- ==== Proof.RegionMatmul.lean ====
/-
  The two matrix-product regions of the network, each as ONE array.

  Each region runs over 25 grid points. At point t it reads rows [2000 t, 2000 t + 2000) of a 50000 × 128 array and the
  whole of a 128 × 128 weight matrix, multiplies the 2000 × 128 row block by the matrix (a sum over the 128 inner
  coordinates at every entry; the change of float format in front of the product is the identity on extended reals), and
  writes the 2000 × 128 result to the same rows of the output. Since the 25 row blocks cover the 50000 rows, the output
  array after the region is the product of the two arrays entry by entry: `Cert.Spec.matProd`.

  The steps: the block product at an entry (p, q) as `∑ k, l (p, k) * r (k, q)`; the body's result at an index of the
  block as the product's entry at the corresponding index of the array, given what the two blocks hold; the block a grid
  point writes back as that block of the product array; the cover of the rows by the blocks (row r is in block r / 2000);
  and the whole-array value.
-/
import proofs.«129509_j463856468484_1_alg».proof.Proof.Gen.KernelIdeal.Frame
import proofs.«129509_j463856468484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

/-- Both axis origins of a whole-block access are zero. -/
theorem origin_zero : (![0, 0] : Fin 2 → Nat) = fun _ => 0 := funext fun a => by fin_cases a <;> rfl

/-! ## The 2000 × 128 by 128 × 128 block product, entry by entry -/

theorem prodLhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem prodLhs_inner (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem prodRhs_inner (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem prodRhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the block product into a zero accumulator: the sum over the 128 inner coordinates. -/
theorem blockProd_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact prodLhs_row _ _
    | ⟨1, _⟩ => exact (prodLhs_inner _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (prodRhs_inner _ _).trans hk
    | ⟨1, _⟩ => exact prodRhs_col _ _)
  rw [el, er]

/-- The first product's body at entry (p, q): the change of float format is the identity on extended reals. -/
theorem k0_pay1_apply (v0 : Vec Ideal S2000x128 .f32) (v2 : Vec Ideal S128x128 .f32) (p : Fin 2000) (q : Fin 128) :
    k0_pay1 (F := Ideal) v0 v2 (ix2 p q) = ∑ k : Fin 128, v0 (ix2 p k) * v2 (ix2 k q) := by
  unfold k0_pay1
  exact blockProd_apply _ _ p q

/-- When the row block `x0` holds, on the row of `y`, the row of `i` of the array `A`, the weight block `x1` is the matrix
    `W`, and `y` and `i` have the same column, the body's result at `y` is the entry of the product A · W at `i`. -/
theorem k0_pay1_eq_matProd (x0 : Vec Ideal S2000x128 .f32) (x1 : Vec Ideal S128x128 .f32)
    (A : S50000x128.Idx → EReal) (W : S128x128.Idx → EReal) (y : S2000x128.Idx) (i : S50000x128.Idx)
    (hcol : (i 1).val = (y 1).val)
    (hx0 : ∀ k : Fin 128, x0 (ix2 ⟨(y 0).val, idx2_lt0 y⟩ k) = A (ix2 ⟨(i 0).val, idx2_lt0 i⟩ k))
    (hx1 : ∀ k q : Fin 128, x1 (ix2 k q) = W (ix2 k q)) :
    k0_pay1 (F := Ideal) x0 x1 y = Cert.Spec.arr2 (Cert.Spec.matProd A W) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : s = q := Fin.ext hcol
  rw [k0_pay1_apply, Cert.Spec.arr2_ix2]
  unfold Cert.Spec.matProd
  exact Finset.sum_congr rfl fun k _ => congrArg₂ (· * ·) (hx0 k) (hx1 k s)

/-- The second product's body is the first's: the shape cast in front of it is to the same shape, hence the identity. -/
theorem k2_pay1_eq (v0 : Vec Ideal S2000x128 .f32) (v3 : Vec Ideal S128x128 .f32) :
    k2_pay1 (F := Ideal) v0 v3 = k0_pay1 (F := Ideal) v0 v3 := by
  unfold k2_pay1 k0_pay1
  rw [shapeCast_self]

/-! ## Region 0: the first product, block by block and as one array -/

/-- The index maps of region 0 over its 25 grid points: the row-tiled windows sit at block row `t`, column block 0; the
    weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Region0
variable (V : (c : Dev nD) → (b : Ref sig .tc) → Buf (Elt Ideal) ((c : Thread nD τ).loc b)) (c : Dev nD)

/-- What grid point `t` writes back is block `t` of the product of the two arrays the region finds. -/
theorem flushed0_eq (t : Fin cfg0.N) :
    (dat0 (F := Ideal) V c).flushed 2 t = ((cfg0.win 2).blk t).view.read (Elt Ideal) (Cert.Spec.arr2 (Cert.Spec.matProd (V c main_arg0) (V c main_arg2))) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S128x128) origin_zero]
  obtain ⟨e0, e1, e2, e3, e4, e5⟩ := idx_facts0 t
  funext j
  show k0_pay1 (F := Ideal) (iblk0 V c 0 t) (iblk0 V c 1 t) j = Cert.Spec.arr2 (Cert.Spec.matProd (V c main_arg0) (V c main_arg2)) (((cfg0.win 2).blk t).view.emb j)
  refine k0_pay1_eq_matProd (iblk0 V c 0 t) (iblk0 V c 1 t) (V c main_arg0) (V c main_arg2) j (((cfg0.win 2).blk t).view.emb j) ?_ (fun k => ?_) (fun k q => ?_)
  · show win0_2.index t (1 : Fin 2) * 128 + 1 * (j 1).val = (j 1).val
    omega
  · show V c main_arg0 (((cfg0.win 0).blk t).view.emb _) = V c main_arg0 _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_arg2 (((cfg0.win 1).blk t).view.emb _) = V c main_arg2 _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- Row `r` of the output lies in the block of point `r / 2000`: the 25 blocks of 2000 rows cover the 50000 rows. -/
theorem cover0 (i : S50000x128.Idx) : ∃ t : Fin cfg0.N, (cfg0.win 2).flush t = true ∧ i ∈ ((cfg0.win 2).blk t).view.set := by
  have h0 : (i 0).val < 50000 := idx2_lt0 i
  have h1 : (i 1).val < 128 := idx2_lt1 i
  have ht : (i 0).val / 2000 < cfg0.N := by show _ < grid0.N; rw [N_0]; omega
  obtain ⟨-, -, -, -, e4, e5⟩ := idx_facts0 ⟨(i 0).val / 2000, ht⟩
  refine ⟨⟨(i 0).val / 2000, ht⟩, flush0_2 _, ?_⟩
  rw [mem_blk0]
  intro a
  match a with
  | ⟨0, _⟩ => show win0_2.index ⟨(i 0).val / 2000, ht⟩ (0 : Fin 2) * 2000 ≤ (i 0).val ∧ (i 0).val < win0_2.index ⟨(i 0).val / 2000, ht⟩ (0 : Fin 2) * 2000 + 2000
              rw [e4]; show (i 0).val / 2000 * 2000 ≤ (i 0).val ∧ (i 0).val < (i 0).val / 2000 * 2000 + 2000; omega
  | ⟨1, _⟩ => show win0_2.index ⟨(i 0).val / 2000, ht⟩ (1 : Fin 2) * 128 ≤ (i 1).val ∧ (i 1).val < win0_2.index ⟨(i 0).val / 2000, ht⟩ (1 : Fin 2) * 128 + 128
              rw [e5]; omega

/-- THE VALUE OF REGION 0: after its 25 points the output array is the product of the two arrays the region finds. -/
theorem region0_value :
    (dat0 (F := Ideal) V c).arrAt 2 cfg0.N = Cert.Spec.arr2 (Cert.Spec.matProd (V c main_arg0) (V c main_arg2)) :=
  (dat0 (F := Ideal) V c).arrAt_eq_of_cover 2 (Cert.Spec.arr2 (Cert.Spec.matProd (V c main_arg0) (V c main_arg2)))
    (fun t _ => flushed0_eq V c t) (cover0)
end Region0

/-! ## Region 2: the second product, block by block and as one array -/

/-- The index maps of region 2 over its 25 grid points: the row-tiled windows sit at block row `t`, column block 0; the
    weight window at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section Region2
variable (V : (c : Dev nD) → (b : Ref sig .tc) → Buf (Elt Ideal) ((c : Thread nD τ).loc b)) (c : Dev nD)

/-- What grid point `t` writes back is block `t` of the product of the two arrays the region finds. -/
theorem flushed2_eq (t : Fin cfg2.N) :
    (dat2 (F := Ideal) V c).flushed 2 t = ((cfg2.win 2).blk t).view.read (Elt Ideal) (Cert.Spec.arr2 (Cert.Spec.matProd (V c main_v45) (V c main_arg4))) := by
  show (cfg2.win 2).cut (grid2.coords t) ((dat2 V c).after 2 t) = _
  rw [after2_2]
  unfold out2_2
  rw [View.canon_unit_zero origin_zero]
  simp only [View.ld_unit_zero (S := S2000x128) origin_zero, View.ld_unit_zero (S := S128x128) origin_zero]
  rw [k2_pay1_eq]
  obtain ⟨e0, e1, e2, e3, e4, e5⟩ := idx_facts2 t
  funext j
  show k0_pay1 (F := Ideal) (iblk2 V c 0 t) (iblk2 V c 1 t) j = Cert.Spec.arr2 (Cert.Spec.matProd (V c main_v45) (V c main_arg4)) (((cfg2.win 2).blk t).view.emb j)
  refine k0_pay1_eq_matProd (iblk2 V c 0 t) (iblk2 V c 1 t) (V c main_v45) (V c main_arg4) j (((cfg2.win 2).blk t).view.emb j) ?_ (fun k => ?_) (fun k q => ?_)
  · show win2_2.index t (1 : Fin 2) * 128 + 1 * (j 1).val = (j 1).val
    omega
  · show V c main_v45 (((cfg2.win 0).blk t).view.emb _) = V c main_v45 _
    refine congrArg (V c main_v45) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg4 (((cfg2.win 1).blk t).view.emb _) = V c main_arg4 _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega

/-- An index of the output array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v46).slice (win2_2.rect t)).set ↔ _
  rw [View.set_slice_whole, Rect.mem_set_unit]
  exact Iff.rfl

/-- Row `r` of the output lies in the block of point `r / 2000`: the 25 blocks of 2000 rows cover the 50000 rows. -/
theorem cover2 (i : S50000x128.Idx) : ∃ t : Fin cfg2.N, (cfg2.win 2).flush t = true ∧ i ∈ ((cfg2.win 2).blk t).view.set := by
  have h0 : (i 0).val < 50000 := idx2_lt0 i
  have h1 : (i 1).val < 128 := idx2_lt1 i
  have ht : (i 0).val / 2000 < cfg2.N := by show _ < grid2.N; rw [N_2]; omega
  obtain ⟨-, -, -, -, e4, e5⟩ := idx_facts2 ⟨(i 0).val / 2000, ht⟩
  refine ⟨⟨(i 0).val / 2000, ht⟩, flush2_2 _, ?_⟩
  rw [mem_blk2]
  intro a
  match a with
  | ⟨0, _⟩ => show win2_2.index ⟨(i 0).val / 2000, ht⟩ (0 : Fin 2) * 2000 ≤ (i 0).val ∧ (i 0).val < win2_2.index ⟨(i 0).val / 2000, ht⟩ (0 : Fin 2) * 2000 + 2000
              rw [e4]; show (i 0).val / 2000 * 2000 ≤ (i 0).val ∧ (i 0).val < (i 0).val / 2000 * 2000 + 2000; omega
  | ⟨1, _⟩ => show win2_2.index ⟨(i 0).val / 2000, ht⟩ (1 : Fin 2) * 128 ≤ (i 1).val ∧ (i 1).val < win2_2.index ⟨(i 0).val / 2000, ht⟩ (1 : Fin 2) * 128 + 128
              rw [e5]; omega

/-- THE VALUE OF REGION 2: after its 25 points the output array is the product of the two arrays the region finds. -/
theorem region2_value :
    (dat2 (F := Ideal) V c).arrAt 2 cfg2.N = Cert.Spec.arr2 (Cert.Spec.matProd (V c main_v45) (V c main_arg4)) :=
  (dat2 (F := Ideal) V c).arrAt_eq_of_cover 2 (Cert.Spec.arr2 (Cert.Spec.matProd (V c main_v45) (V c main_arg4)))
    (fun t _ => flushed2_eq V c t) (cover2)
end Region2

end Cert.KernelIdeal.RegionValue

end
-- ==== Proof.RegionBiasRelu.lean ====
/-
  The two bias-and-clip regions of the network, read as whole arrays.

  Each region runs over 25 grid points. At point t it holds rows [2000 t, 2000 t + 2000) of a 50000 × 128 array x and the
  whole 1 × 128 bias row b, and writes back rows [2000 t, 2000 t + 2000) of the result, whose entry (p, q) is
  max (x (2000 t + p, q) + b (0, q)) 0. The blocks are restrictions of ONE function of the index, and the 25 blocks tile
  the 50000 rows, so after the last point the output array is that function: entry (r, j) is
  `Cert.Spec.biasRelu x (b (0, ·)) r j = max (x (r, j) + b (0, j)) 0`.

  The steps, per region: the body's arithmetic at an entry (`payloadK_eq`); the block indices at a grid point, decided
  once over the grid (`blockIndexK`); what a point writes back as a block of the specified array (`writebackK_eq`);
  the blocks' cover of the array by arithmetic (`rows_coveredK`); the array after the last point (`regionK_value`).
-/
import proofs.«129509_j463856468484_1_alg».proof.Proof.Gen.KernelIdeal.Frame
import proofs.«129509_j463856468484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.Pipeline
open Idealize.ShloMosaic.TcCoe

/-- The offset (0, 0) is zero on every axis. -/
theorem offsets_zero : (![0, 0] : Fin 2 → Nat) = fun _ => 0 := funext fun a => by fin_cases a <;> rfl

/-- The specified array at an index i: the input at i plus the bias at i's column, clipped at zero. -/
theorem biasRelu_at (x : S50000x128.Idx → EReal) (b : Fin 128 → EReal) (i : S50000x128.Idx) :
    Cert.Spec.arr2 (Cert.Spec.biasRelu x b) i = max (x i + b ⟨(i 1).val, idx2_lt1 i⟩) 0 := by
  show max (x (ix2 ⟨(i 0).val, idx2_lt0 i⟩ ⟨(i 1).val, idx2_lt1 i⟩) + b ⟨(i 1).val, idx2_lt1 i⟩) 0 = _
  rw [show ix2 ⟨(i 0).val, idx2_lt0 i⟩ ⟨(i 1).val, idx2_lt1 i⟩ = i from (eq_ix2 i).symm]

/-- One entry: the clipped sum of the input read at i0 and the bias row read at i1 is the specified entry at i2, when
    i0 is i2 and i1 is (0, column of i2). -/
theorem biasRelu_entry (a0 : S50000x128.Idx → EReal) (a1 : S1x128.Idx → EReal) (i0 i2 : S50000x128.Idx) (i1 : S1x128.Idx)
    (h0 : i0 = i2) (h1 : i1 = ix2 (0 : Fin 1) ⟨(i2 1).val, idx2_lt1 i2⟩) :
    max (a0 i0 + a1 i1) 0 = Cert.Spec.arr2 (Cert.Spec.biasRelu a0 fun q => a1 (ix2 0 q)) i2 := by
  subst h0 h1
  exact (biasRelu_at a0 (fun q => a1 (ix2 0 q)) i0).symm

variable (V : (c : Dev nD) → (b : Ref sig .tc) → Buf (Elt Ideal) ((c : Thread nD τ).loc b)) (c : Dev nD)

/-! ## Region 1: rows of `main_v43` plus the one row of `main_v44`, clipped at zero -/

/-- The body's arithmetic, entry by entry: the two shape casts change nothing, the broadcast reads the bias row at the
    entry's column, and the word of +0 is the extended real 0. -/
theorem payload1_eq (x0 : Vec Ideal S2000x128 .f32) (x1 : Vec Ideal S1x128 .f32) :
    k1_pay1 (F := Ideal) x0 x1 = fun j => max (x0 j + x1 (ix2 (0 : Fin 1) ⟨(j 1).val, idx2_lt1 j⟩)) 0 := by
  funext j
  obtain ⟨p, q, rfl⟩ : ∃ (p : Fin 2000) (q : Fin 128), j = ix2 p q := ⟨j 0, j 1, eq_ix2 j⟩
  unfold k1_pay1
  show max (shapeCast S2000x128 x0 _ (ix2 p q) + broadcastTo S2000x128 (shapeCast S1x128 x1 _) _ (ix2 p q))
      (Ideal.ofBits .f32 0x00000000#32) = _
  rw [shapeCast_self, shapeCast_self, broadcastTo_1b_ab_apply, Ideal.ofBits_zero_f32]

/-- The block indices at grid point t: the row-tiled windows sit at block (t, 0), the bias window at block (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the specified array: entry (p, q) of the block is entry (2000 t + p, q)
    of the array, computed from entry (2000 t + p, q) of the input and entry (0, q) of the bias. -/
theorem writeback1_eq (t : Fin cfg1.N) :
    (dat1 (F := Ideal) V c).flushed 2 t = ((cfg1.win 2).blk t).view.read (Elt Ideal)
      (Cert.Spec.arr2 (Cert.Spec.biasRelu (V c main_v43) (fun j => V c main_v44 (ix2 0 j)))) := by
  show (cfg1.win 2).cut (grid1.coords t) ((dat1 V c).after 2 t) = _
  rw [after1_2]
  unfold out1_2
  rw [View.canon_unit_zero offsets_zero]
  simp only [View.ld_unit_zero (S := S2000x128) offsets_zero, View.ld_unit_zero (S := S1x128) offsets_zero]
  rw [payload1_eq]
  obtain ⟨e0, e1, e2, e3, e4, e5⟩ := blockIndex1 t
  funext j
  have hj0 : (j 0).val < 2000 := (j 0).isLt
  have hj1 : (j 1).val < 128 := (j 1).isLt
  refine biasRelu_entry (V c main_v43) (V c main_v44) (((cfg1.win 0).blk t).view.emb j) (((cfg1.win 2).blk t).view.emb j)
    (((cfg1.win 1).blk t).view.emb (ix2 (0 : Fin 1) ⟨(j 1).val, hj1⟩)) ?_ ?_
  · funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the array is in point t's block iff each coordinate is in the block's range on its axis. -/
theorem mem_block1 (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v45).slice (win1_2.rect t)).set ↔ _
  rw [View.set_slice_whole, Rect.mem_set_unit]
  exact Iff.rfl

/-- The 25 blocks of 2000 rows cover the 50000 rows: row r lies in the block of point r / 2000. -/
theorem rows_covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e0, e1, e2, e3, e4, e5⟩ := blockIndex1 t
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE REGION'S VALUE: after all 25 points the output array holds, at (r, j), max (x (r, j) + b (0, j)) 0. -/
theorem region1_value : (Gen.dat1 (F := Ideal) V c).arrAt 2 cfg1.N
    = Cert.Spec.arr2 (Cert.Spec.biasRelu (V c main_v43) (fun j => V c main_v44 (ix2 0 j))) :=
  (dat1 (F := Ideal) V c).arrAt_eq_of_cover 2 _ (fun t _ => writeback1_eq V c t) rows_covered1

/-! ## Region 3: rows of `main_v74` plus the one row of `main_v75`, clipped at zero -/

/-- The body's arithmetic, entry by entry: the two shape casts change nothing, the broadcast reads the bias row at the
    entry's column, and the word of +0 is the extended real 0. -/
theorem payload3_eq (x0 : Vec Ideal S2000x128 .f32) (x1 : Vec Ideal S1x128 .f32) :
    k3_pay1 (F := Ideal) x0 x1 = fun j => max (x0 j + x1 (ix2 (0 : Fin 1) ⟨(j 1).val, idx2_lt1 j⟩)) 0 := by
  funext j
  obtain ⟨p, q, rfl⟩ : ∃ (p : Fin 2000) (q : Fin 128), j = ix2 p q := ⟨j 0, j 1, eq_ix2 j⟩
  unfold k3_pay1
  show max (shapeCast S2000x128 x0 _ (ix2 p q) + broadcastTo S2000x128 (shapeCast S1x128 x1 _) _ (ix2 p q))
      (Ideal.ofBits .f32 0x00000000#32) = _
  rw [shapeCast_self, shapeCast_self, broadcastTo_1b_ab_apply, Ideal.ofBits_zero_f32]

/-- The block indices at grid point t: the row-tiled windows sit at block (t, 0), the bias window at block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the specified array: entry (p, q) of the block is entry (2000 t + p, q)
    of the array, computed from entry (2000 t + p, q) of the input and entry (0, q) of the bias. -/
theorem writeback3_eq (t : Fin cfg3.N) :
    (dat3 (F := Ideal) V c).flushed 2 t = ((cfg3.win 2).blk t).view.read (Elt Ideal)
      (Cert.Spec.arr2 (Cert.Spec.biasRelu (V c main_v74) (fun j => V c main_v75 (ix2 0 j)))) := by
  show (cfg3.win 2).cut (grid3.coords t) ((dat3 V c).after 2 t) = _
  rw [after3_2]
  unfold out3_2
  rw [View.canon_unit_zero offsets_zero]
  simp only [View.ld_unit_zero (S := S2000x128) offsets_zero, View.ld_unit_zero (S := S1x128) offsets_zero]
  rw [payload3_eq]
  obtain ⟨e0, e1, e2, e3, e4, e5⟩ := blockIndex3 t
  funext j
  have hj0 : (j 0).val < 2000 := (j 0).isLt
  have hj1 : (j 1).val < 128 := (j 1).isLt
  refine biasRelu_entry (V c main_v74) (V c main_v75) (((cfg3.win 0).blk t).view.emb j) (((cfg3.win 2).blk t).view.emb j)
    (((cfg3.win 1).blk t).view.emb (ix2 (0 : Fin 1) ⟨(j 1).val, hj1⟩)) ?_ ?_
  · funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  · funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the array is in point t's block iff each coordinate is in the block's range on its axis. -/
theorem mem_block3 (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v76).slice (win3_2.rect t)).set ↔ _
  rw [View.set_slice_whole, Rect.mem_set_unit]
  exact Iff.rfl

/-- The 25 blocks of 2000 rows cover the 50000 rows: row r lies in the block of point r / 2000. -/
theorem rows_covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨e0, e1, e2, e3, e4, e5⟩ := blockIndex3 t
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- THE REGION'S VALUE: after all 25 points the output array holds, at (r, j), max (x (r, j) + b (0, j)) 0. -/
theorem region3_value : (Gen.dat3 (F := Ideal) V c).arrAt 2 cfg3.N
    = Cert.Spec.arr2 (Cert.Spec.biasRelu (V c main_v74) (fun j => V c main_v75 (ix2 0 j))) :=
  (dat3 (F := Ideal) V c).arrAt_eq_of_cover 2 _ (fun t _ => writeback3_eq V c t) rows_covered3

end Cert.KernelIdeal.RegionValue

end
-- ==== Proof.RegionHead.lean ====
/-
  The value of the head region: a matrix product, a bias, and the logarithm of the softmax of each row.

  The region runs over 25 grid points. At point t it reads rows 2000 t … 2000 t + 1999 of the features
  (a 50000 × 128 array), the whole 128 × 10 weight matrix and the whole 1 × 10 bias row, and writes rows
  2000 t … 2000 t + 1999 of the 50000 × 10 result. On a block the body forms the logits
  l (p, q) = ∑ k, x (p, k) · w (k, q) + b q, subtracts from each row its largest entry M p (a fold of max from −∞),
  and subtracts the logarithm of the row's sum of exponentials: (l (p, q) − M p) − log (∑ q', exp (l (p, q') − M p)).

  The file reads that arithmetic entry by entry (`pay_apply`), identifies each input block with the rows of its array
  (`iblk0_apply`, `iblk1_eq`, `iblk2_eq`), shows that what point t writes back is block t of one whole-array function
  (`flushed_head`), that the 25 blocks cover the result (`rows_covered`: row r lies in block r / 2000), and concludes that the
  result array after the region is `Cert.Spec.head` of the three input arrays (`region4_value`).
-/
import proofs.«129509_j463856468484_1_alg».proof.Proof.Gen.KernelIdeal.Frame
import proofs.«129509_j463856468484_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

section Columns
variable {α : Type}

/-- A vector of length a read as a column [a, 1]: entry (i, u) is entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns: entry (p, c) is the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The block's product with the weight matrix, entry by entry: the sum over the 128 inner coordinates. -/
theorem matmul_apply_ix2 (a : FVec Ideal S2000x128 .bf16) (b : FVec Ideal S128x10 .bf16) (p : Fin 2000) (q : Fin 10) :
    matmul dot_S2000x128_S128x10_S2000x10_1_0_0_1_n_n none a b (constant (F := Ideal) S2000x10 .f32 0x00000000#32) (ix2 p q)
      = ∑ k : Fin 128, a (ix2 p k) * b (ix2 k q) := by
  show FloatOps.matmul _ none a b (constant (F := Ideal) S2000x10 .f32 0x00000000#32) (ix2 p q) = _
  rw [Ideal.matmul_constant_zero_apply,
    ← Equiv.sum_comp (contrEquiv1 dot_S2000x128_S128x10_S2000x10_1_0_0_1_n_n 128 rfl rfl).symm]
  refine Finset.sum_congr rfl fun c _ => ?_
  have c2 := contrEquiv1_symm_val dot_S2000x128_S128x10_S2000x10_1_0_0_1_n_n 128 rfl rfl c
  have l2 : dot_S2000x128_S128x10_S2000x10_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x10_S2000x10_1_0_0_1_n_n]; rfl
    | ⟨1, _⟩ => simp [DotDims.lhsIdx, dot_S2000x128_S128x10_S2000x10_1_0_0_1_n_n]; exact c2
  have r2 : dot_S2000x128_S128x10_S2000x10_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x10_S2000x10_1_0_0_1_n_n]; exact c2
    | ⟨1, _⟩ => simp [DotDims.rhsIdx, dot_S2000x128_S128x10_S2000x10_1_0_0_1_n_n]; rfl
  rw [l2, r2]

/-- The index of column k of row p of a [2000, 10] block, as the reduction along the columns names it. -/
theorem lift_row (p : Fin 2000) (k : Fin 10) :
    reduces_S2000x10_S2000.lift (ix1 p) k = ix2 p k := by
  funext ax; apply Fin.ext
  match ax with
  | ⟨0, _⟩ => rfl
  | ⟨1, _⟩ => rfl

/-- The maximum along the columns, at row p: the fold of max from −∞ over the row's ten entries. -/
theorem rowMax_apply (v : FVec Ideal S2000x10 .f32) (hφ : FKind.Formats .f32)
    (hacc : (0xFF800000#32 : BitVec 32) = FKind.maximumf.neutral .f32 hφ) (p : Fin 2000) :
    multiReduction (F := Ideal) .maximumf [1] S2000 v 0xFF800000#32 reduces_S2000x10_S2000 hφ hacc (ix1 p)
      = Cert.Spec.rowMax (fun k => v (ix2 p k)) := by
  refine (Ideal.multiReduction_maximumf_single v 0xFF800000#32 reduces_S2000x10_S2000 hφ hacc (ix1 p)).trans ?_
  have e : (fun k : Fin 10 => v (reduces_S2000x10_S2000.lift (ix1 p) k)) = fun k : Fin 10 => v (ix2 p k) :=
    funext fun k => congrArg v (lift_row p k)
  exact congrArg (fun f => (Finset.univ : Finset (Fin 10)).fold max (Ideal.ofBits .f32 0xFF800000#32) f) e

/-- The sum along the columns, at row p: the sum of the row's ten entries. -/
theorem rowSum_apply (v : FVec Ideal S2000x10 .f32) (hφ : FKind.Formats .f32)
    (hacc : (0x00000000#32 : BitVec 32) = FKind.add.neutral .f32 hφ) (p : Fin 2000) :
    multiReduction (F := Ideal) .add [1] S2000 v 0x00000000#32 reduces_S2000x10_S2000 hφ hacc (ix1 p)
      = ∑ k : Fin 10, v (ix2 p k) := by
  refine (Ideal.multiReduction_add_single v 0x00000000#32 reduces_S2000x10_S2000 hφ hacc (ix1 p)).trans ?_
  exact Finset.sum_congr rfl fun k _ => congrArg v (lift_row p k)

/-- The exponential of a vector, entry by entry. -/
theorem exp_apply {s : Shape} {φ : FTy} (a : FVec Ideal s φ) (i : s.Idx) : exp a i = Ideal.exp (a i) := rfl
/-- The logarithm of a vector, entry by entry. -/
theorem log_apply {s : Shape} {φ : FTy} (a : FVec Ideal s φ) (i : s.Idx) : log a i = Ideal.log (a i) := rfl

/-- The logits of a block of 2000 rows as the body computes them: the product with the weight matrix (both factors
    through a change of format, which is the identity here) into a zero accumulator, plus the bias row repeated
    down the rows. -/
def logitsBlock (x0 : Vec Ideal S2000x128 .f32) (x1 : Vec Ideal S128x10 .f32) (x2 : Vec Ideal S1x10 .f32) :
    FVec Ideal S2000x10 .f32 :=
  addf
    (matmul dot_S2000x128_S128x10_S2000x10_1_0_0_1_n_n none
      (truncf .bf16 (shapeCast S2000x128 x0 shapeCasts_S2000x128_S2000x128) bitsLt_bf16_f32)
      (truncf .bf16 x1 bitsLt_bf16_f32) (constant (F := Ideal) S2000x10 .f32 0x00000000#32))
    (broadcastTo S2000x10 (shapeCast S1x10 x2 shapeCasts_S1x10_S1x10) broadcasts_S1x10_S2000x10)

/-- Entry (p, q) of the block's logits: the sum over the 128 inner coordinates plus the bias at q. -/
theorem logitsBlock_apply (x0 : Vec Ideal S2000x128 .f32) (x1 : Vec Ideal S128x10 .f32) (x2 : Vec Ideal S1x10 .f32)
    (p : Fin 2000) (q : Fin 10) :
    logitsBlock x0 x1 x2 (ix2 p q) = (∑ k : Fin 128, x0 (ix2 p k) * x1 (ix2 k q)) + x2 (ix2 0 q) := by
  unfold logitsBlock
  rw [addf_apply, matmul_apply_ix2, broadcastTo_1b_ab_apply, shapeCast_self, shapeCast_self]
  rfl

/-- Each entry of a block minus the largest entry of its row, as the body computes it: the maximum along the columns,
    read as a column and repeated along the columns, subtracted. -/
def shiftBlock (l : FVec Ideal S2000x10 .f32) : FVec Ideal S2000x10 .f32 :=
  subf l
    (broadcastTo S2000x10
      (shapeCast S2000x1
        (multiReduction (F := Ideal) .maximumf [1] S2000 l 0xFF800000#32 reduces_S2000x10_S2000 (.inl rfl) rfl)
        shapeCasts_S2000_S2000x1)
      broadcasts_S2000x1_S2000x10)

/-- Entry (p, q) of it: the entry minus the row's maximum. -/
theorem shiftBlock_apply (l : FVec Ideal S2000x10 .f32) (p : Fin 2000) (q : Fin 10) :
    shiftBlock l (ix2 p q) = l (ix2 p q) - Cert.Spec.rowMax (fun k => l (ix2 p k)) := by
  unfold shiftBlock
  rw [subf_apply, broadcastTo_a1_ab_apply, shapeCast_a_a1_apply]
  exact congrArg (fun m => l (ix2 p q) - m) (rowMax_apply l _ _ p)

/-- The logarithm of the softmax of each row of a block, as the body computes it: the shifted entries minus the
    logarithm of the sum along the columns of their exponentials. -/
def logSoftmaxBlock (l : FVec Ideal S2000x10 .f32) : FVec Ideal S2000x10 .f32 :=
  subf (shiftBlock l)
    (broadcastTo S2000x10
      (log (shapeCast S2000x1
        (multiReduction (F := Ideal) .add [1] S2000 (exp (shiftBlock l)) 0x00000000#32 reduces_S2000x10_S2000 (.inl rfl) rfl)
        shapeCasts_S2000_S2000x1))
      broadcasts_S2000x1_S2000x10)

/-- Entry (p, q) of it: the logarithm of the softmax of row p, at q. -/
theorem logSoftmaxBlock_apply (l : FVec Ideal S2000x10 .f32) (p : Fin 2000) (q : Fin 10) :
    logSoftmaxBlock l (ix2 p q) = Cert.Spec.logSoftmaxRow (fun k => l (ix2 p k)) q := by
  unfold logSoftmaxBlock
  rw [subf_apply, broadcastTo_a1_ab_apply, log_apply, shapeCast_a_a1_apply]
  refine (congrArg (fun s => shiftBlock l (ix2 p q) - Ideal.log s) (rowSum_apply (exp (shiftBlock l)) _ _ p)).trans ?_
  simp only [exp_apply, shiftBlock_apply]
  rfl

/-- The body's arithmetic is those two steps composed. -/
theorem pay_eq (x0 : Vec Ideal S2000x128 .f32) (x1 : Vec Ideal S128x10 .f32) (x2 : Vec Ideal S1x10 .f32) :
    k4_pay1 (F := Ideal) x0 x1 x2 = logSoftmaxBlock (logitsBlock x0 x1 x2) := rfl

/-- THE BODY AT AN INDEX: entry (p, q) of what the body computes from a block of rows, the weight matrix and the bias
    row is the logarithm of the softmax of row p's logits, at q. -/
theorem pay_apply (x0 : Vec Ideal S2000x128 .f32) (x1 : Vec Ideal S128x10 .f32) (x2 : Vec Ideal S1x10 .f32)
    (p : Fin 2000) (q : Fin 10) :
    k4_pay1 (F := Ideal) x0 x1 x2 (ix2 p q)
      = Cert.Spec.logSoftmaxRow (fun j' => (∑ k : Fin 128, x0 (ix2 p k) * x1 (ix2 k j')) + x2 (ix2 0 j')) q := by
  rw [pay_eq, logSoftmaxBlock_apply]
  exact congrArg (fun l => Cert.Spec.logSoftmaxRow l q) (funext fun j' => logitsBlock_apply x0 x1 x2 p j')

variable (V : (c : Dev nD) → (b : Ref sig .tc) → Buf (Elt Ideal) ((c : Thread nD τ).loc b)) (c : Dev nD)

theorem offsets_zero : (![0, 0] : Fin 2 → Nat) = fun _ => 0 := funext fun a => by fin_cases a <;> rfl

/-- The printed index maps over the 25 grid points: the row-tiled windows (the features and the result) are at block
    (t, 0), the weight matrix's and the bias row's at block (0, 0). -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The features' block at point t is rows 2000 t … 2000 t + 1999 of the array. -/
theorem iblk0_apply (t : Fin cfg4.N) (p : Fin 2000) (k : Fin 128) (r : Fin 50000) (hr : r.val = 2000 * t.val + p.val) :
    (iblk4 (F := Ideal) V c 0 t : Vec Ideal S2000x128 .f32) (ix2 p k)
      = (V c main_v76 : S50000x128.Idx → EReal) (ix2 r k) := by
  obtain ⟨e0, e1, -⟩ := block_index t
  unfold iblk4
  rw [View.read_apply]
  show V c main_v76 _ = V c main_v76 _
  congr 1
  funext a
  apply Fin.ext
  match a with
  | ⟨0, _⟩ => show win4_0.index t (0 : Fin 2) * 2000 + 1 * p.val = r.val; rw [e0, hr]; omega
  | ⟨1, _⟩ => show win4_0.index t (1 : Fin 2) * 128 + 1 * k.val = k.val; rw [e1]; omega

/-- The weight matrix's block at every point is the whole matrix. -/
theorem iblk1_eq (t : Fin cfg4.N) :
    (iblk4 (F := Ideal) V c 1 t : Vec Ideal S128x10 .f32) = (V c main_arg6 : S128x10.Idx → EReal) := by
  obtain ⟨-, -, e0, e1, -⟩ := block_index t
  funext j
  unfold iblk4
  rw [View.read_apply]
  show V c main_arg6 _ = V c main_arg6 _
  congr 1
  funext a
  apply Fin.ext
  match a with
  | ⟨0, _⟩ => show win4_1.index t (0 : Fin 2) * 128 + 1 * (j 0).val = (j 0).val; rw [e0]; omega
  | ⟨1, _⟩ => show win4_1.index t (1 : Fin 2) * 10 + 1 * (j 1).val = (j 1).val; rw [e1]; omega

/-- The bias row's block at every point is the whole row. -/
theorem iblk2_eq (t : Fin cfg4.N) :
    (iblk4 (F := Ideal) V c 2 t : Vec Ideal S1x10 .f32) = (V c main_v77 : S1x10.Idx → EReal) := by
  obtain ⟨-, -, -, -, e0, e1, -⟩ := block_index t
  funext j
  unfold iblk4
  rw [View.read_apply]
  show V c main_v77 _ = V c main_v77 _
  congr 1
  funext a
  apply Fin.ext
  match a with
  | ⟨0, _⟩ => show win4_2.index t (0 : Fin 2) * 1 + 1 * (j 0).val = (j 0).val; rw [e0]; omega
  | ⟨1, _⟩ => show win4_2.index t (1 : Fin 2) * 10 + 1 * (j 1).val = (j 1).val; rw [e1]; omega

/-- The array the region leaves: the head of the network, row by row. -/
abbrev headArr : S50000x10.Idx → EReal :=
  Cert.Spec.arr2 (Cert.Spec.head (V c main_v76) (V c main_arg6) (fun j => V c main_v77 (ix2 0 j)))

/-- The body on a block whose row p is row r of the features, with the whole weight matrix and bias row: entry (p, q)
    is the head at (r, q). -/
theorem block_value (X : S50000x128.Idx → EReal) (W : S128x10.Idx → EReal) (B : S1x10.Idx → EReal)
    (x0 : Vec Ideal S2000x128 .f32) (x1 : Vec Ideal S128x10 .f32) (x2 : Vec Ideal S1x10 .f32)
    (p : Fin 2000) (q : Fin 10) (r : Fin 50000)
    (h0 : ∀ k : Fin 128, x0 (ix2 p k) = X (ix2 r k)) (h1 : x1 = W) (h2 : x2 = B) :
    k4_pay1 (F := Ideal) x0 x1 x2 (ix2 p q) = Cert.Spec.head X W (fun j => B (ix2 0 j)) r q := by
  subst h1 h2
  rw [pay_apply]
  unfold Cert.Spec.head Cert.Spec.matProd
  simp only [h0]

/-- WHAT POINT t WRITES BACK is block t of the head of the arrays as the region finds them. -/
theorem flushed_head (t : Fin cfg4.N) :
    (dat4 (F := Ideal) V c).flushed 3 t = ((cfg4.win 3).blk t).view.read (Elt Ideal) (headArr V c) := by
  show (cfg4.win 3).cut (grid4.coords t) ((dat4 V c).after 3 t) = _
  rw [after4_3]
  unfold out4_3
  rw [View.canon_unit_zero offsets_zero]
  simp only [View.ld_unit_zero (S := S2000x128) offsets_zero, View.ld_unit_zero (S := S128x10) offsets_zero, View.ld_unit_zero (S := S1x10) offsets_zero]
  obtain ⟨-, -, -, -, -, -, e0, e1⟩ := block_index t
  have ht : t.val < 25 := lt_of_lt_of_eq t.isLt (N_4 : cfg4.N = 25)
  funext j
  obtain ⟨p, q, rfl⟩ : ∃ (p : Fin 2000) (q : Fin 10), j = ix2 p q := ⟨j 0, j 1, eq_ix2 j⟩
  rw [View.read_apply]
  show k4_pay1 (F := Ideal) (iblk4 V c 0 t) (iblk4 V c 1 t) (iblk4 V c 2 t) (ix2 p q)
    = headArr V c (((cfg4.win 3).blk t).view.emb (ix2 p q))
  refine (block_value (V c main_v76) (V c main_arg6) (V c main_v77) (iblk4 V c 0 t) (iblk4 V c 1 t) (iblk4 V c 2 t) p q
    ⟨2000 * t.val + p.val, by omega⟩ (fun k => iblk0_apply V c t p k _ rfl) (iblk1_eq V c t) (iblk2_eq V c t)).trans ?_
  unfold headArr Cert.Spec.arr2
  congr 1 <;> apply Fin.ext
  · show 2000 * t.val + p.val = win4_3.index t (0 : Fin 2) * 2000 + 1 * p.val; rw [e0]; omega
  · show q.val = win4_3.index t (1 : Fin 2) * 10 + 1 * q.val; rw [e1]; omega

/-- An index of the result array is in point t's block iff each coordinate is in the block's range on its axis. -/
theorem mem_row_block (t : Fin cfg4.N) (i : S50000x10.Idx) :
    i ∈ ((cfg4.win 3).blk t).view.set ↔ ∀ a : Fin 2, win4_3.index t a * S2000x10.size a ≤ (i a).val
      ∧ (i a).val < win4_3.index t a * S2000x10.size a + S2000x10.size a := by
  show i ∈ ((View.whole main_v78).slice (win4_3.rect t)).set ↔ _
  rw [View.set_slice_whole, Rect.mem_set_unit]
  exact Iff.rfl

/-- Every row is in some point's block: row r in the block of point r / 2000. -/
theorem rows_covered (i : S50000x10.Idx) :
    ∃ t : Fin cfg4.N, (cfg4.win 3).flush t = true ∧ i ∈ ((cfg4.win 3).blk t).view.set := by
  have hi0 : (i 0).val < 50000 := (i 0).isLt
  have hi1 : (i 1).val < 10 := (i 1).isLt
  have hN : cfg4.N = 25 := N_4
  have hlt : (i 0).val / 2000 < cfg4.N := by rw [hN]; omega
  obtain ⟨-, -, -, -, -, -, e0, e1⟩ := block_index ⟨(i 0).val / 2000, hlt⟩
  refine ⟨⟨(i 0).val / 2000, hlt⟩, flush4_3 _, ?_⟩
  rw [mem_row_block]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win4_3.index ⟨(i 0).val / 2000, hlt⟩ (1 : Fin 2) * 10 ≤ (i 1).val
      ∧ (i 1).val < win4_3.index ⟨(i 0).val / 2000, hlt⟩ (1 : Fin 2) * 10 + 10
    rw [e1]
    omega

/-- THE REGION'S VALUE: after its 25 points the result array holds the head of the network — the logarithm of the
    softmax of each row's logits — of the features, the weight matrix and the bias row as the region finds them. -/
theorem region4_value :
    (Gen.dat4 (F := Ideal) V c).arrAt 3 cfg4.N
      = Cert.Spec.arr2 (Cert.Spec.head (V c main_v76) (V c main_arg6) (fun j => V c main_v77 (ix2 0 j))) :=
  (dat4 (F := Ideal) V c).arrAt_eq_of_cover 3 (headArr V c) (fun t _ => flushed_head V c t) rows_covered

end Cert.KernelIdeal.RegionValue

end
-- ==== Proof.SpecNet.lean ====
/-
  The whole network, stated once: two graph-convolution layers and the head, each dense piece as its entrywise
  formula (`Cert.Spec`), the aggregation along the edges as the reference's own host operations (`aggT` and the index
  vectors and inverse square-root degrees it takes, all functions of the edge array alone). Both programs are shown to
  end at `netSpec` of their arguments.
-/
import proofs.«129509_j463856468484_1_alg».proof.Proof.Staged
import proofs.«129509_j463856468484_1_alg».proof.Proof.Spec

noncomputable section

namespace Cert.SpecNet

open Cert.ReferenceIdeal Cert.ReferenceIdeal.Gen Idealize.ShloMosaic Idealize.ShloMosaic.ValueIdx
open Cert.ReferenceIdeal.Staged

/-- One layer: the product with the weight matrix, the aggregation along the edges, the bias and the clipping at zero. -/
def layerSpec (e : IVec S2x800000 32) (x : FVec Ideal S50000x128 .f32) (w : FVec Ideal S128x128 .f32) (b : FVec Ideal S128 .f32) :
    FVec Ideal S50000x128 .f32 :=
  Cert.Spec.arr2 (Cert.Spec.biasRelu
    (aggT (F := Ideal) (src2T (F := Ideal) e) (dst2T (F := Ideal) e) (dinvT (F := Ideal) (dst2T (F := Ideal) e)) (Cert.Spec.arr2 (Cert.Spec.matProd x w)))
    (fun j => b (ix1 j)))

/-- The network: two layers, then the head. -/
def netSpec (a0 : FVec Ideal S50000x128 .f32) (e : IVec S2x800000 32) (a2 : FVec Ideal S128x128 .f32) (a3 : FVec Ideal S128 .f32)
    (a4 : FVec Ideal S128x128 .f32) (a5 : FVec Ideal S128 .f32) (a6 : FVec Ideal S128x10 .f32) (a7 : FVec Ideal S10 .f32) :
    FVec Ideal S50000x10 .f32 :=
  Cert.Spec.arr2 (Cert.Spec.head (layerSpec e (layerSpec e a0 a2 a3) a4 a5) a6 (fun j => a7 (ix1 j)))

end Cert.SpecNet

end
-- ==== Proof.KChain.lean ====
/-
  The kernel program from its last region back to its arguments.

  The program is five regions with host operations between them. The contents of the buffers at each boundary are a fold:
  a stretch of host operations applied to the previous contents, or a region's arrays written back over them. Walking
  the fold forwards, every buffer a later step reads is identified as a function of the eight arguments: the index vectors
  and the inverse square-root degrees (functions of the edge array alone); the first product; its aggregation along the
  edges and the first bias as a row; the first layer's output; the second product, aggregation, bias and layer; the last
  bias as a row; and the head. A buffer that a step does not write holds afterwards what it held before. The last
  region's output is the network `Cert.SpecNet.netSpec` of the arguments.
-/
import proofs.«129509_j463856468484_1_alg».proof.Proof.Gen.KernelIdeal.Frame
import proofs.«129509_j463856468484_1_alg».proof.Proof.KHost
import proofs.«129509_j463856468484_1_alg».proof.Proof.KHost14
import proofs.«129509_j463856468484_1_alg».proof.Proof.RegionMatmul
import proofs.«129509_j463856468484_1_alg».proof.Proof.RegionBiasRelu
import proofs.«129509_j463856468484_1_alg».proof.Proof.RegionHead
import proofs.«129509_j463856468484_1_alg».proof.Proof.SpecNet

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.ValueIdx
open Cert.KernelIdeal.HostStretch Cert.KernelIdeal.RegionValue Cert.ReferenceIdeal.Staged

variable (m : (ℓ : Loc nD τ sig) → Buf (Elt Ideal) ℓ) (ρ : Dev nD → PrngReg) (c : Dev nD)

/-! ## At the first product's entry: the arguments as launched, the index vectors, the inverse square-root degrees -/

theorem W2_arg0 : W2 (F := Ideal) m ρ c (Proc.devRef .tc main_arg0) = m ((c.tc : Thread nD τ).loc main_arg0) :=
  kept01_arg0 (W0 m ρ c)
theorem W2_arg2 : W2 (F := Ideal) m ρ c (Proc.devRef .tc main_arg2) = m ((c.tc : Thread nD τ).loc main_arg2) :=
  kept01_arg2 (W0 m ρ c)
theorem W2_arg3 : W2 (F := Ideal) m ρ c (Proc.devRef .tc main_arg3) = m ((c.tc : Thread nD τ).loc main_arg3) :=
  kept01_arg3 (W0 m ρ c)
theorem W2_arg4 : W2 (F := Ideal) m ρ c (Proc.devRef .tc main_arg4) = m ((c.tc : Thread nD τ).loc main_arg4) :=
  kept01_arg4 (W0 m ρ c)
theorem W2_arg5 : W2 (F := Ideal) m ρ c (Proc.devRef .tc main_arg5) = m ((c.tc : Thread nD τ).loc main_arg5) :=
  kept01_arg5 (W0 m ρ c)
theorem W2_arg6 : W2 (F := Ideal) m ρ c (Proc.devRef .tc main_arg6) = m ((c.tc : Thread nD τ).loc main_arg6) :=
  kept01_arg6 (W0 m ρ c)
theorem W2_arg7 : W2 (F := Ideal) m ρ c (Proc.devRef .tc main_arg7) = m ((c.tc : Thread nD τ).loc main_arg7) :=
  kept01_arg7 (W0 m ρ c)

theorem W2_v5 : W2 (F := Ideal) m ρ c (Proc.devRef .tc main_v5) = src2T (F := Ideal) (m ((c.tc : Thread nD τ).loc main_arg1)) :=
  v5_of (W0 m ρ c)
theorem W2_v6 : W2 (F := Ideal) m ρ c (Proc.devRef .tc main_v6) = dst2T (F := Ideal) (m ((c.tc : Thread nD τ).loc main_arg1)) :=
  v6_of (W0 m ρ c)
theorem W2_v14 : W2 (F := Ideal) m ρ c (Proc.devRef .tc main_v14) = dinvT (F := Ideal) (dst2T (F := Ideal) (m ((c.tc : Thread nD τ).loc main_arg1))) :=
  v14_of (W0 m ρ c)

/-! ## After the first product -/

/-- The first product's output is the product of the node features with the first weight matrix. -/
theorem W3_v15 : W3 (F := Ideal) m ρ c (Proc.devRef .tc main_v15) = Cert.Spec.arr2 (Cert.Spec.matProd (m ((c.tc : Thread nD τ).loc main_arg0)) (m ((c.tc : Thread nD τ).loc main_arg2))) := by
  refine (W3_arr m ρ c 2).trans ((region0_value (V2 m ρ) c).trans ?_)
  show Cert.Spec.arr2 (Cert.Spec.matProd (W2 m ρ c (Proc.devRef .tc main_arg0)) (W2 m ρ c (Proc.devRef .tc main_arg2))) = _
  rw [W2_arg0 m ρ c, W2_arg2 m ρ c]

/-- The region writes none of these. -/
theorem W3_v5 : W3 (F := Ideal) m ρ c (Proc.devRef .tc main_v5) = src2T (F := Ideal) (m ((c.tc : Thread nD τ).loc main_arg1)) :=
  (W3_of_ne m ρ c main_v5 (by decide)).trans (W2_v5 m ρ c)
theorem W3_v6 : W3 (F := Ideal) m ρ c (Proc.devRef .tc main_v6) = dst2T (F := Ideal) (m ((c.tc : Thread nD τ).loc main_arg1)) :=
  (W3_of_ne m ρ c main_v6 (by decide)).trans (W2_v6 m ρ c)
theorem W3_v14 : W3 (F := Ideal) m ρ c (Proc.devRef .tc main_v14) = dinvT (F := Ideal) (dst2T (F := Ideal) (m ((c.tc : Thread nD τ).loc main_arg1))) :=
  (W3_of_ne m ρ c main_v14 (by decide)).trans (W2_v14 m ρ c)
theorem W3_arg3 : W3 (F := Ideal) m ρ c (Proc.devRef .tc main_arg3) = m ((c.tc : Thread nD τ).loc main_arg3) :=
  (W3_of_ne m ρ c main_arg3 (by decide)).trans (W2_arg3 m ρ c)
theorem W3_arg4 : W3 (F := Ideal) m ρ c (Proc.devRef .tc main_arg4) = m ((c.tc : Thread nD τ).loc main_arg4) :=
  (W3_of_ne m ρ c main_arg4 (by decide)).trans (W2_arg4 m ρ c)
theorem W3_arg5 : W3 (F := Ideal) m ρ c (Proc.devRef .tc main_arg5) = m ((c.tc : Thread nD τ).loc main_arg5) :=
  (W3_of_ne m ρ c main_arg5 (by decide)).trans (W2_arg5 m ρ c)
theorem W3_arg6 : W3 (F := Ideal) m ρ c (Proc.devRef .tc main_arg6) = m ((c.tc : Thread nD τ).loc main_arg6) :=
  (W3_of_ne m ρ c main_arg6 (by decide)).trans (W2_arg6 m ρ c)
theorem W3_arg7 : W3 (F := Ideal) m ρ c (Proc.devRef .tc main_arg7) = m ((c.tc : Thread nD τ).loc main_arg7) :=
  (W3_of_ne m ρ c main_arg7 (by decide)).trans (W2_arg7 m ρ c)

/-! ## At the first bias and clipping's entry -/

/-- The first product aggregated along the edges. -/
theorem W4_v43 : W4 (F := Ideal) m ρ c (Proc.devRef .tc main_v43)
    = aggT (F := Ideal) (src2T (F := Ideal) (m ((c.tc : Thread nD τ).loc main_arg1))) (dst2T (F := Ideal) (m ((c.tc : Thread nD τ).loc main_arg1))) (dinvT (F := Ideal) (dst2T (F := Ideal) (m ((c.tc : Thread nD τ).loc main_arg1)))) (Cert.Spec.arr2 (Cert.Spec.matProd (m ((c.tc : Thread nD τ).loc main_arg0)) (m ((c.tc : Thread nD τ).loc main_arg2)))) := by
  refine (v43_of (W3 m ρ c)).trans ?_
  rw [W3_v5 m ρ c, W3_v6 m ρ c, W3_v14 m ρ c, W3_v15 m ρ c]

/-- The first bias as a row. -/
theorem W4_v44 (j : Fin 128) : W4 (F := Ideal) m ρ c (Proc.devRef .tc main_v44) (ix2 0 j) = m ((c.tc : Thread nD τ).loc main_arg3) (ix1 j) :=
  (v44_at (W3 m ρ c) j).trans (congrFun (W3_arg3 m ρ c) (ix1 j))

/-- The host operations write none of these. -/
theorem W4_v5 : W4 (F := Ideal) m ρ c (Proc.devRef .tc main_v5) = src2T (F := Ideal) (m ((c.tc : Thread nD τ).loc main_arg1)) :=
  (kept1_v5 (W3 m ρ c)).trans (W3_v5 m ρ c)
theorem W4_v6 : W4 (F := Ideal) m ρ c (Proc.devRef .tc main_v6) = dst2T (F := Ideal) (m ((c.tc : Thread nD τ).loc main_arg1)) :=
  (kept1_v6 (W3 m ρ c)).trans (W3_v6 m ρ c)
theorem W4_v14 : W4 (F := Ideal) m ρ c (Proc.devRef .tc main_v14) = dinvT (F := Ideal) (dst2T (F := Ideal) (m ((c.tc : Thread nD τ).loc main_arg1))) :=
  (kept1_v14 (W3 m ρ c)).trans (W3_v14 m ρ c)
theorem W4_arg4 : W4 (F := Ideal) m ρ c (Proc.devRef .tc main_arg4) = m ((c.tc : Thread nD τ).loc main_arg4) :=
  (kept1_arg4 (W3 m ρ c)).trans (W3_arg4 m ρ c)
theorem W4_arg5 : W4 (F := Ideal) m ρ c (Proc.devRef .tc main_arg5) = m ((c.tc : Thread nD τ).loc main_arg5) :=
  (kept1_arg5 (W3 m ρ c)).trans (W3_arg5 m ρ c)
theorem W4_arg6 : W4 (F := Ideal) m ρ c (Proc.devRef .tc main_arg6) = m ((c.tc : Thread nD τ).loc main_arg6) :=
  (kept1_arg6 (W3 m ρ c)).trans (W3_arg6 m ρ c)
theorem W4_arg7 : W4 (F := Ideal) m ρ c (Proc.devRef .tc main_arg7) = m ((c.tc : Thread nD τ).loc main_arg7) :=
  (kept1_arg7 (W3 m ρ c)).trans (W3_arg7 m ρ c)

/-! ## After the first bias and clipping: the first layer -/

theorem W5_v45 : W5 (F := Ideal) m ρ c (Proc.devRef .tc main_v45) = Cert.SpecNet.layerSpec (m ((c.tc : Thread nD τ).loc main_arg1)) (m ((c.tc : Thread nD τ).loc main_arg0)) (m ((c.tc : Thread nD τ).loc main_arg2)) (m ((c.tc : Thread nD τ).loc main_arg3)) := by
  refine (W5_arr m ρ c 2).trans ((region1_value (V4 m ρ) c).trans ?_)
  show Cert.Spec.arr2 (Cert.Spec.biasRelu (W4 m ρ c (Proc.devRef .tc main_v43)) (fun j => W4 m ρ c (Proc.devRef .tc main_v44) (ix2 0 j))) = _
  rw [W4_v43 m ρ c, funext (W4_v44 m ρ c)]
  rfl

/-- The region writes none of these. -/
theorem W5_v5 : W5 (F := Ideal) m ρ c (Proc.devRef .tc main_v5) = src2T (F := Ideal) (m ((c.tc : Thread nD τ).loc main_arg1)) :=
  (W5_of_ne m ρ c main_v5 (by decide)).trans (W4_v5 m ρ c)
theorem W5_v6 : W5 (F := Ideal) m ρ c (Proc.devRef .tc main_v6) = dst2T (F := Ideal) (m ((c.tc : Thread nD τ).loc main_arg1)) :=
  (W5_of_ne m ρ c main_v6 (by decide)).trans (W4_v6 m ρ c)
theorem W5_v14 : W5 (F := Ideal) m ρ c (Proc.devRef .tc main_v14) = dinvT (F := Ideal) (dst2T (F := Ideal) (m ((c.tc : Thread nD τ).loc main_arg1))) :=
  (W5_of_ne m ρ c main_v14 (by decide)).trans (W4_v14 m ρ c)
theorem W5_arg4 : W5 (F := Ideal) m ρ c (Proc.devRef .tc main_arg4) = m ((c.tc : Thread nD τ).loc main_arg4) :=
  (W5_of_ne m ρ c main_arg4 (by decide)).trans (W4_arg4 m ρ c)
theorem W5_arg5 : W5 (F := Ideal) m ρ c (Proc.devRef .tc main_arg5) = m ((c.tc : Thread nD τ).loc main_arg5) :=
  (W5_of_ne m ρ c main_arg5 (by decide)).trans (W4_arg5 m ρ c)
theorem W5_arg6 : W5 (F := Ideal) m ρ c (Proc.devRef .tc main_arg6) = m ((c.tc : Thread nD τ).loc main_arg6) :=
  (W5_of_ne m ρ c main_arg6 (by decide)).trans (W4_arg6 m ρ c)
theorem W5_arg7 : W5 (F := Ideal) m ρ c (Proc.devRef .tc main_arg7) = m ((c.tc : Thread nD τ).loc main_arg7) :=
  (W5_of_ne m ρ c main_arg7 (by decide)).trans (W4_arg7 m ρ c)

/-! ## After the second product -/

theorem W6_v46 : W6 (F := Ideal) m ρ c (Proc.devRef .tc main_v46) = Cert.Spec.arr2 (Cert.Spec.matProd (Cert.SpecNet.layerSpec (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4))) := by
  refine (W6_arr m ρ c 2).trans ((region2_value (V5 m ρ) c).trans ?_)
  show Cert.Spec.arr2 (Cert.Spec.matProd (W5 m ρ c (Proc.devRef .tc main_v45)) (W5 m ρ c (Proc.devRef .tc main_arg4))) = _
  rw [W5_v45 m ρ c, W5_arg4 m ρ c]

/-- The region writes none of these. -/
theorem W6_v5 : W6 (F := Ideal) m ρ c (Proc.devRef .tc main_v5) = src2T (F := Ideal) (m ((c.tc : Thread nD τ).loc main_arg1)) :=
  (W6_of_ne m ρ c main_v5 (by decide)).trans (W5_v5 m ρ c)
theorem W6_v6 : W6 (F := Ideal) m ρ c (Proc.devRef .tc main_v6) = dst2T (F := Ideal) (m ((c.tc : Thread nD τ).loc main_arg1)) :=
  (W6_of_ne m ρ c main_v6 (by decide)).trans (W5_v6 m ρ c)
theorem W6_v14 : W6 (F := Ideal) m ρ c (Proc.devRef .tc main_v14) = dinvT (F := Ideal) (dst2T (F := Ideal) (m ((c.tc : Thread nD τ).loc main_arg1))) :=
  (W6_of_ne m ρ c main_v14 (by decide)).trans (W5_v14 m ρ c)
theorem W6_arg5 : W6 (F := Ideal) m ρ c (Proc.devRef .tc main_arg5) = m ((c.tc : Thread nD τ).loc main_arg5) :=
  (W6_of_ne m ρ c main_arg5 (by decide)).trans (W5_arg5 m ρ c)
theorem W6_arg6 : W6 (F := Ideal) m ρ c (Proc.devRef .tc main_arg6) = m ((c.tc : Thread nD τ).loc main_arg6) :=
  (W6_of_ne m ρ c main_arg6 (by decide)).trans (W5_arg6 m ρ c)
theorem W6_arg7 : W6 (F := Ideal) m ρ c (Proc.devRef .tc main_arg7) = m ((c.tc : Thread nD τ).loc main_arg7) :=
  (W6_of_ne m ρ c main_arg7 (by decide)).trans (W5_arg7 m ρ c)

/-! ## At the second bias and clipping's entry -/

/-- The second product aggregated along the edges. -/
theorem W7_v74 : W7 (F := Ideal) m ρ c (Proc.devRef .tc main_v74)
    = aggT (F := Ideal) (src2T (F := Ideal) (m ((c.tc : Thread nD τ).loc main_arg1))) (dst2T (F := Ideal) (m ((c.tc : Thread nD τ).loc main_arg1))) (dinvT (F := Ideal) (dst2T (F := Ideal) (m ((c.tc : Thread nD τ).loc main_arg1)))) (Cert.Spec.arr2 (Cert.Spec.matProd (Cert.SpecNet.layerSpec (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)))) := by
  refine (v74_of (W6 m ρ c)).trans ?_
  rw [W6_v5 m ρ c, W6_v6 m ρ c, W6_v14 m ρ c, W6_v46 m ρ c]

/-- The second bias as a row. -/
theorem W7_v75 (j : Fin 128) : W7 (F := Ideal) m ρ c (Proc.devRef .tc main_v75) (ix2 0 j) = m ((c.tc : Thread nD τ).loc main_arg5) (ix1 j) :=
  (v75_at (W6 m ρ c) j).trans (congrFun (W6_arg5 m ρ c) (ix1 j))

/-- The host operations write none of these. -/
theorem W7_arg6 : W7 (F := Ideal) m ρ c (Proc.devRef .tc main_arg6) = m ((c.tc : Thread nD τ).loc main_arg6) :=
  (kept3_arg6 (W6 m ρ c)).trans (W6_arg6 m ρ c)
theorem W7_arg7 : W7 (F := Ideal) m ρ c (Proc.devRef .tc main_arg7) = m ((c.tc : Thread nD τ).loc main_arg7) :=
  (kept3_arg7 (W6 m ρ c)).trans (W6_arg7 m ρ c)

/-! ## After the second bias and clipping: the second layer -/

theorem W8_v76 : W8 (F := Ideal) m ρ c (Proc.devRef .tc main_v76) = Cert.SpecNet.layerSpec (m ((c.tc : Thread nD τ).loc main_arg1)) (Cert.SpecNet.layerSpec (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) := by
  refine (W8_arr m ρ c 2).trans ((region3_value (V7 m ρ) c).trans ?_)
  show Cert.Spec.arr2 (Cert.Spec.biasRelu (W7 m ρ c (Proc.devRef .tc main_v74)) (fun j => W7 m ρ c (Proc.devRef .tc main_v75) (ix2 0 j))) = _
  rw [W7_v74 m ρ c, funext (W7_v75 m ρ c)]
  rfl

/-- The region writes none of these. -/
theorem W8_arg6 : W8 (F := Ideal) m ρ c (Proc.devRef .tc main_arg6) = m ((c.tc : Thread nD τ).loc main_arg6) :=
  (W8_of_ne m ρ c main_arg6 (by decide)).trans (W7_arg6 m ρ c)
theorem W8_arg7 : W8 (F := Ideal) m ρ c (Proc.devRef .tc main_arg7) = m ((c.tc : Thread nD τ).loc main_arg7) :=
  (W8_of_ne m ρ c main_arg7 (by decide)).trans (W7_arg7 m ρ c)

/-! ## At the head's entry -/

/-- The head's bias as a row. -/
theorem W9_v77 (j : Fin 10) : W9 (F := Ideal) m ρ c (Proc.devRef .tc main_v77) (ix2 0 j) = m ((c.tc : Thread nD τ).loc main_arg7) (ix1 j) :=
  (v77_at (W8 m ρ c) j).trans (congrFun (W8_arg7 m ρ c) (ix1 j))

/-- The host operation writes none of these. -/
theorem W9_v76 : W9 (F := Ideal) m ρ c (Proc.devRef .tc main_v76) = Cert.SpecNet.layerSpec (m ((c.tc : Thread nD τ).loc main_arg1)) (Cert.SpecNet.layerSpec (m ((c.tc : Thread nD τ).loc main_arg1)) (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5)) :=
  (kept4_v76 (W8 m ρ c)).trans (W8_v76 m ρ c)
theorem W9_arg6 : W9 (F := Ideal) m ρ c (Proc.devRef .tc main_arg6) = m ((c.tc : Thread nD τ).loc main_arg6) :=
  (kept4_arg6 (W8 m ρ c)).trans (W8_arg6 m ρ c)

/-! ## After the head -/

/-- THE KERNEL PROGRAM'S VALUE: its last region's output is the network of the eight arguments. -/
theorem kernel_value (m : (ℓ : Loc nD τ sig) → Buf (Elt Ideal) ℓ) (ρ : Dev nD → PrngReg) (c : Dev nD) :
    Gen.W10 (F := Ideal) m ρ c (Proc.devRef .tc main_v78)
      = Cert.SpecNet.netSpec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W10_arr m ρ c 3).trans ((region4_value (V9 m ρ) c).trans ?_)
  show Cert.Spec.arr2 (Cert.Spec.head (W9 m ρ c (Proc.devRef .tc main_v76)) (W9 m ρ c (Proc.devRef .tc main_arg6)) (fun j => W9 m ρ c (Proc.devRef .tc main_v77) (ix2 0 j))) = _
  rw [W9_v76 m ρ c, W9_arg6 m ρ c, funext (W9_v77 m ρ c)]
  rfl

end Cert.KernelIdeal.Chain

end
-- ==== Proof.RefStretch.lean ====
/-
  The reference program's run, read back stretch by stretch.

  The program is a straight line of 141 host operations. Cut into five consecutive stretches, each stretch's effect on
  the buffers a later stretch reads is one of the staged functions of the network applied to the contents the stretch
  found (or the contents themselves, for a buffer the stretch does not write); composing the five gives the whole
  network as one function of the eight arguments, and the arguments unchanged.
-/
import proofs.«129509_j463856468484_1_alg».proof.Proof.RefRun
import proofs.«129509_j463856468484_1_alg».proof.Proof.Staged
import Idealize.ShloMosaic.Lib.StableHlo.Run
import Idealize.ShloMosaic.PureOps.Ideal

noncomputable section

namespace Cert.ReferenceIdeal.RefStretch

open Cert.ReferenceIdeal Cert.ReferenceIdeal.Gen Cert.ReferenceIdeal.ValueP Cert.ReferenceIdeal.Staged Idealize.ShloMosaic Idealize.ShloMosaic.TcCoe Idealize.SL.Sem Idealize.ShloMosaic.StableHlo

variable {F : FTy → Type} [FloatOps F]

/-- The contents after two lines run one after the other: the second line's effect on the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The five stretches -/

/-- Operations 1–22: the two rows of the edge array, the first matrix product, the index vectors, the degrees and their inverse square roots. -/
def P0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v5 (iotaInDim S50000 32 0),
    binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Operations 23–63: the first aggregation along the edges, the bias and the clipping at zero. -/
def P1 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

/-- Operations 64–81: the second matrix product, and the index vectors and inverse square-root degrees computed again. -/
def P2 : List (HloOp τ sig (Elt F)) :=
  [ binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v49 (iotaInDim S50000 32 0),
    binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select ]

/-- Operations 82–122: the second aggregation, bias and clipping. -/
def P3 : List (HloOp τ sig (Elt F)) :=
  [ nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x128 ![0, 1] bcast_S850000x1_S850000x128_0_1 : (⟨S850000x1, .f32⟩ : BufTy).Contents (Elt F) → (⟨S850000x128, .f32⟩ : BufTy).Contents (Elt F)),
    binary main_v81 main_v83 main_v84 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v85 (broadcastInDim S50000x128 ![] bcast_S_S50000x128 : (⟨S_, .f32⟩ : BufTy).Contents (Elt F) → (⟨S50000x128, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v90) (TRef.of (T := ⟨S50000x128, .f32⟩) main_call3_v0) (TRef.of (T := ⟨S50000x128, .f32⟩) main_v91) maximumf ]

/-- Operations 123–141: the head. -/
def P4 : List (HloOp τ sig (Elt F)) :=
  [ binary main_v91 main_arg6 main_v92 ((fun l r => Host.dotGeneral dot_S50000x128_S128x10_S50000x10_1_0_0_1_n_n none l r) : (⟨S50000x128, .f32⟩ : BufTy).Contents (Elt F) → (⟨S128x10, .f32⟩ : BufTy).Contents (Elt F) → (⟨S50000x10, .f32⟩ : BufTy).Contents (Elt F)),
    unary main_arg7 main_v93 (broadcastInDim S1x10 ![1] bcast_S10_S1x10_1 : (⟨S10, .f32⟩ : BufTy).Contents (Elt F) → (⟨S1x10, .f32⟩ : BufTy).Contents (Elt F)),
    unary main_v93 main_v94 (broadcastInDim S50000x10 ![0, 1] bcast_S1x10_S50000x10_0_1 : (⟨S1x10, .f32⟩ : BufTy).Contents (Elt F) → (⟨S50000x10, .f32⟩ : BufTy).Contents (Elt F)),
    binary main_v92 main_v94 main_v95 (addf : (⟨S50000x10, .f32⟩ : BufTy).Contents (Elt F) → (⟨S50000x10, .f32⟩ : BufTy).Contents (Elt F) → (⟨S50000x10, .f32⟩ : BufTy).Contents (Elt F)),
    TRef.nullary (TRef.of (T := ⟨S_, .f32⟩) main_call4_cst) (constant S_ .f32 0xFF800000#32),
    TRef.binary (TRef.of (T := ⟨S50000x10, .f32⟩) main_v95) (TRef.of (T := ⟨S_, .f32⟩) main_call4_cst) (TRef.of (T := ⟨S50000, .f32⟩) main_call4_v0) (fun x v => Host.reduce FloatOps.maximumf x v reducesTo_S50000x10_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf,
    TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x10, .f32⟩) main_call4_v4) (broadcastInDim S50000x10 ![0, 1] bcast_S50000x1_S50000x10_0_1),
    TRef.binary (TRef.of (T := ⟨S50000x10, .f32⟩) main_v95) (TRef.of (T := ⟨S50000x10, .f32⟩) main_call4_v4) (TRef.of (T := ⟨S50000x10, .f32⟩) main_call4_v5) subf,
    TRef.unary (TRef.of (T := ⟨S50000x10, .f32⟩) main_call4_v5) (TRef.of (T := ⟨S50000x10, .f32⟩) main_call4_v6) Host.exp,
    TRef.nullary (TRef.of (T := ⟨S_, .f32⟩) main_call4_cst_1) (constant S_ .f32 0x00000000#32),
    TRef.binary (TRef.of (T := ⟨S50000x10, .f32⟩) main_call4_v6) (TRef.of (T := ⟨S_, .f32⟩) main_call4_cst_1) (TRef.of (T := ⟨S50000, .f32⟩) main_call4_v7) (fun x v => Host.reduceAdd x v reducesTo_S50000x10_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x10, .f32⟩) main_call4_v10) (broadcastInDim S50000x10 ![0, 1] bcast_S50000x1_S50000x10_0_1),
    TRef.binary (TRef.of (T := ⟨S50000x10, .f32⟩) main_call4_v5) (TRef.of (T := ⟨S50000x10, .f32⟩) main_call4_v10) (TRef.of (T := ⟨S50000x10, .f32⟩) main_v96) subf ]

set_option maxRecDepth 8192 in
/-- The program's operations are the five stretches in order. -/
theorem ops_eq : (ops : List (HloOp τ sig (Elt F))) = P0 ++ (P1 ++ (P2 ++ (P3 ++ P4))) := rfl

/-- Contents carried to a buffer's own type and back are unchanged. -/
theorem ofBuf_toBuf {T : BufTy} (x : TRef sig T) (v : T.Contents (Elt F)) : x.ofBuf (x.toBuf v) = v := by
  obtain ⟨r, h, _, _⟩ := x
  subst h
  rfl

/-! ## The pieces of the index vectors -/

/-- Row 0 of the edge array as a vector: the edges' sources. -/
def srcRowT (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge array as a vector: the edges' targets. -/
def dstRowT (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- A vector of 800000 entries followed by the node numbers 0, …, 49999 (one loop per node). -/
def withLoopsT (a : (⟨S800000, .i32⟩ : BufTy).Contents (Elt F)) : (⟨S850000, .i32⟩ : BufTy).Contents (Elt F) :=
  concatenate S850000 0 [⟨S800000, a⟩, ⟨S50000, (iotaInDim S50000 32 0)⟩] concatenates_S800000_S50000_S850000_d0

/-- The sources' index vector is row 0 followed by the loops … -/
theorem src2T_eq (e : (⟨S2x800000, .i32⟩ : BufTy).Contents (Elt F)) : src2T (F := F) e = withLoopsT (srcRowT e) := rfl
/-- … and the targets' is row 1 followed by the loops. -/
theorem dst2T_eq (e : (⟨S2x800000, .i32⟩ : BufTy).Contents (Elt F)) : dst2T (F := F) e = withLoopsT (dstRowT e) := rfl

/-! ## Operations 1–22 -/

set_option maxRecDepth 8192 in
/-- The first matrix product. -/
theorem P0_dot (W : Valuation τ sig (Elt F)) :
    after P0 W (Proc.devRef .tc main_v4)
      = dotT (F := F) (W (Proc.devRef .tc main_arg0)) (W (Proc.devRef .tc main_arg2)) := by
  unfold P0
  after_results_simp
  rfl

set_option maxRecDepth 8192 in
/-- The edges' sources. -/
theorem P0_srcRow (W : Valuation τ sig (Elt F)) :
    after P0 W (Proc.devRef .tc main_v1)
      = srcRowT (F := F) (W (Proc.devRef .tc main_arg1)) := by
  unfold P0
  after_results_simp
  rfl

set_option maxRecDepth 8192 in
/-- The edges' targets. -/
theorem P0_dstRow (W : Valuation τ sig (Elt F)) :
    after P0 W (Proc.devRef .tc main_v3)
      = dstRowT (F := F) (W (Proc.devRef .tc main_arg1)) := by
  unfold P0
  after_results_simp
  rfl

set_option maxRecDepth 8192 in
/-- The sources' index vector. -/
theorem P0_src (W : Valuation τ sig (Elt F)) :
    after P0 W (Proc.devRef .tc main_v6)
      = src2T (F := F) (W (Proc.devRef .tc main_arg1)) := by
  unfold P0
  after_results_simp
  rfl

set_option maxRecDepth 8192 in
/-- The targets' index vector. -/
theorem P0_dst (W : Valuation τ sig (Elt F)) :
    after P0 W (Proc.devRef .tc main_v7)
      = dst2T (F := F) (W (Proc.devRef .tc main_arg1)) := by
  unfold P0
  after_results_simp
  rfl

set_option maxRecDepth 8192 in
/-- The inverse square-root degrees. -/
theorem P0_dinv (W : Valuation τ sig (Elt F)) :
    after P0 W (Proc.devRef .tc main_v15)
      = dinvT (F := F) (dst2T (F := F) (W (Proc.devRef .tc main_arg1))) := by
  unfold P0
  after_results_simp
  simp only [ofBuf_toBuf]
  simp only [TRef.toBuf, TRef.ofBuf, cast_eq]
  rfl

/-! ## Operations 23–63 -/

set_option maxRecDepth 8192 in
/-- The first aggregation, bias and clipping. -/
theorem P1_layer (W : Valuation τ sig (Elt F)) :
    after P1 W (Proc.devRef .tc main_v47)
      = brT (F := F) (aggT (F := F) (W (Proc.devRef .tc main_v6)) (W (Proc.devRef .tc main_v7)) (W (Proc.devRef .tc main_v15)) (W (Proc.devRef .tc main_v4))) (W (Proc.devRef .tc main_arg3)) := by
  unfold P1
  after_results_simp
  simp only [ofBuf_toBuf]
  simp only [TRef.toBuf, TRef.ofBuf, cast_eq]
  rfl

/-! ## Operations 64–81 -/

set_option maxRecDepth 8192 in
/-- The second matrix product. -/
theorem P2_dot (W : Valuation τ sig (Elt F)) :
    after P2 W (Proc.devRef .tc main_v48)
      = dotT (F := F) (W (Proc.devRef .tc main_v47)) (W (Proc.devRef .tc main_arg4)) := by
  unfold P2
  after_results_simp
  rfl

set_option maxRecDepth 8192 in
/-- The sources' index vector, built again from row 0. -/
theorem P2_src (W : Valuation τ sig (Elt F)) :
    after P2 W (Proc.devRef .tc main_v50)
      = withLoopsT (F := F) (W (Proc.devRef .tc main_v1)) := by
  unfold P2
  after_results_simp
  rfl

set_option maxRecDepth 8192 in
/-- The targets' index vector, built again from row 1. -/
theorem P2_dst (W : Valuation τ sig (Elt F)) :
    after P2 W (Proc.devRef .tc main_v51)
      = withLoopsT (F := F) (W (Proc.devRef .tc main_v3)) := by
  unfold P2
  after_results_simp
  rfl

set_option maxRecDepth 8192 in
/-- The inverse square-root degrees, computed again. -/
theorem P2_dinv (W : Valuation τ sig (Elt F)) :
    after P2 W (Proc.devRef .tc main_v59)
      = dinvT (F := F) (withLoopsT (F := F) (W (Proc.devRef .tc main_v3))) := by
  unfold P2
  after_results_simp
  simp only [ofBuf_toBuf]
  simp only [TRef.toBuf, TRef.ofBuf, cast_eq]
  rfl

/-! ## Operations 82–122 -/

set_option maxRecDepth 8192 in
/-- The second aggregation, bias and clipping. -/
theorem P3_layer (W : Valuation τ sig (Elt F)) :
    after P3 W (Proc.devRef .tc main_v91)
      = brT (F := F) (aggT (F := F) (W (Proc.devRef .tc main_v50)) (W (Proc.devRef .tc main_v51)) (W (Proc.devRef .tc main_v59)) (W (Proc.devRef .tc main_v48))) (W (Proc.devRef .tc main_arg5)) := by
  unfold P3
  after_results_simp
  simp only [ofBuf_toBuf]
  simp only [TRef.toBuf, TRef.ofBuf, cast_eq]
  rfl

/-! ## Operations 123–141 -/

set_option maxRecDepth 8192 in
/-- The head. -/
theorem P4_head (W : Valuation τ sig (Elt F)) :
    after P4 W (Proc.devRef .tc main_v96)
      = headT (F := F) (W (Proc.devRef .tc main_v91)) (W (Proc.devRef .tc main_arg6)) (W (Proc.devRef .tc main_arg7)) := by
  unfold P4
  after_results_simp
  simp only [ofBuf_toBuf]
  simp only [TRef.toBuf, TRef.ofBuf, cast_eq]
  rfl

/-! ## What each stretch leaves unchanged -/

/-- What the stretch leaves as it found it: the arguments. -/
theorem P0_keeps_main_arg0 (W : Valuation τ sig (Elt F)) :
    after P0 W (Proc.devRef .tc main_arg0) = W (Proc.devRef .tc main_arg0) := by
  unfold P0
  after_results_simp <;> rfl
theorem P0_keeps_main_arg1 (W : Valuation τ sig (Elt F)) :
    after P0 W (Proc.devRef .tc main_arg1) = W (Proc.devRef .tc main_arg1) := by
  unfold P0
  after_results_simp <;> rfl
theorem P0_keeps_main_arg2 (W : Valuation τ sig (Elt F)) :
    after P0 W (Proc.devRef .tc main_arg2) = W (Proc.devRef .tc main_arg2) := by
  unfold P0
  after_results_simp <;> rfl
theorem P0_keeps_main_arg3 (W : Valuation τ sig (Elt F)) :
    after P0 W (Proc.devRef .tc main_arg3) = W (Proc.devRef .tc main_arg3) := by
  unfold P0
  after_results_simp <;> rfl
theorem P0_keeps_main_arg4 (W : Valuation τ sig (Elt F)) :
    after P0 W (Proc.devRef .tc main_arg4) = W (Proc.devRef .tc main_arg4) := by
  unfold P0
  after_results_simp <;> rfl
theorem P0_keeps_main_arg5 (W : Valuation τ sig (Elt F)) :
    after P0 W (Proc.devRef .tc main_arg5) = W (Proc.devRef .tc main_arg5) := by
  unfold P0
  after_results_simp <;> rfl
theorem P0_keeps_main_arg6 (W : Valuation τ sig (Elt F)) :
    after P0 W (Proc.devRef .tc main_arg6) = W (Proc.devRef .tc main_arg6) := by
  unfold P0
  after_results_simp <;> rfl
theorem P0_keeps_main_arg7 (W : Valuation τ sig (Elt F)) :
    after P0 W (Proc.devRef .tc main_arg7) = W (Proc.devRef .tc main_arg7) := by
  unfold P0
  after_results_simp <;> rfl

/-- What the stretch leaves as it found it: the arguments and the two rows of the edge array. -/
theorem P1_keeps_main_v1 (W : Valuation τ sig (Elt F)) :
    after P1 W (Proc.devRef .tc main_v1) = W (Proc.devRef .tc main_v1) := by
  unfold P1
  after_results_simp <;> rfl
theorem P1_keeps_main_v3 (W : Valuation τ sig (Elt F)) :
    after P1 W (Proc.devRef .tc main_v3) = W (Proc.devRef .tc main_v3) := by
  unfold P1
  after_results_simp <;> rfl
theorem P1_keeps_main_arg0 (W : Valuation τ sig (Elt F)) :
    after P1 W (Proc.devRef .tc main_arg0) = W (Proc.devRef .tc main_arg0) := by
  unfold P1
  after_results_simp <;> rfl
theorem P1_keeps_main_arg1 (W : Valuation τ sig (Elt F)) :
    after P1 W (Proc.devRef .tc main_arg1) = W (Proc.devRef .tc main_arg1) := by
  unfold P1
  after_results_simp <;> rfl
theorem P1_keeps_main_arg2 (W : Valuation τ sig (Elt F)) :
    after P1 W (Proc.devRef .tc main_arg2) = W (Proc.devRef .tc main_arg2) := by
  unfold P1
  after_results_simp <;> rfl
theorem P1_keeps_main_arg3 (W : Valuation τ sig (Elt F)) :
    after P1 W (Proc.devRef .tc main_arg3) = W (Proc.devRef .tc main_arg3) := by
  unfold P1
  after_results_simp <;> rfl
theorem P1_keeps_main_arg4 (W : Valuation τ sig (Elt F)) :
    after P1 W (Proc.devRef .tc main_arg4) = W (Proc.devRef .tc main_arg4) := by
  unfold P1
  after_results_simp <;> rfl
theorem P1_keeps_main_arg5 (W : Valuation τ sig (Elt F)) :
    after P1 W (Proc.devRef .tc main_arg5) = W (Proc.devRef .tc main_arg5) := by
  unfold P1
  after_results_simp <;> rfl
theorem P1_keeps_main_arg6 (W : Valuation τ sig (Elt F)) :
    after P1 W (Proc.devRef .tc main_arg6) = W (Proc.devRef .tc main_arg6) := by
  unfold P1
  after_results_simp <;> rfl
theorem P1_keeps_main_arg7 (W : Valuation τ sig (Elt F)) :
    after P1 W (Proc.devRef .tc main_arg7) = W (Proc.devRef .tc main_arg7) := by
  unfold P1
  after_results_simp <;> rfl

/-- What the stretch leaves as it found it: the arguments. -/
theorem P2_keeps_main_arg0 (W : Valuation τ sig (Elt F)) :
    after P2 W (Proc.devRef .tc main_arg0) = W (Proc.devRef .tc main_arg0) := by
  unfold P2
  after_results_simp <;> rfl
theorem P2_keeps_main_arg1 (W : Valuation τ sig (Elt F)) :
    after P2 W (Proc.devRef .tc main_arg1) = W (Proc.devRef .tc main_arg1) := by
  unfold P2
  after_results_simp <;> rfl
theorem P2_keeps_main_arg2 (W : Valuation τ sig (Elt F)) :
    after P2 W (Proc.devRef .tc main_arg2) = W (Proc.devRef .tc main_arg2) := by
  unfold P2
  after_results_simp <;> rfl
theorem P2_keeps_main_arg3 (W : Valuation τ sig (Elt F)) :
    after P2 W (Proc.devRef .tc main_arg3) = W (Proc.devRef .tc main_arg3) := by
  unfold P2
  after_results_simp <;> rfl
theorem P2_keeps_main_arg4 (W : Valuation τ sig (Elt F)) :
    after P2 W (Proc.devRef .tc main_arg4) = W (Proc.devRef .tc main_arg4) := by
  unfold P2
  after_results_simp <;> rfl
theorem P2_keeps_main_arg5 (W : Valuation τ sig (Elt F)) :
    after P2 W (Proc.devRef .tc main_arg5) = W (Proc.devRef .tc main_arg5) := by
  unfold P2
  after_results_simp <;> rfl
theorem P2_keeps_main_arg6 (W : Valuation τ sig (Elt F)) :
    after P2 W (Proc.devRef .tc main_arg6) = W (Proc.devRef .tc main_arg6) := by
  unfold P2
  after_results_simp <;> rfl
theorem P2_keeps_main_arg7 (W : Valuation τ sig (Elt F)) :
    after P2 W (Proc.devRef .tc main_arg7) = W (Proc.devRef .tc main_arg7) := by
  unfold P2
  after_results_simp <;> rfl

/-- What the stretch leaves as it found it: the arguments. -/
theorem P3_keeps_main_arg0 (W : Valuation τ sig (Elt F)) :
    after P3 W (Proc.devRef .tc main_arg0) = W (Proc.devRef .tc main_arg0) := by
  unfold P3
  after_results_simp <;> rfl
theorem P3_keeps_main_arg1 (W : Valuation τ sig (Elt F)) :
    after P3 W (Proc.devRef .tc main_arg1) = W (Proc.devRef .tc main_arg1) := by
  unfold P3
  after_results_simp <;> rfl
theorem P3_keeps_main_arg2 (W : Valuation τ sig (Elt F)) :
    after P3 W (Proc.devRef .tc main_arg2) = W (Proc.devRef .tc main_arg2) := by
  unfold P3
  after_results_simp <;> rfl
theorem P3_keeps_main_arg3 (W : Valuation τ sig (Elt F)) :
    after P3 W (Proc.devRef .tc main_arg3) = W (Proc.devRef .tc main_arg3) := by
  unfold P3
  after_results_simp <;> rfl
theorem P3_keeps_main_arg4 (W : Valuation τ sig (Elt F)) :
    after P3 W (Proc.devRef .tc main_arg4) = W (Proc.devRef .tc main_arg4) := by
  unfold P3
  after_results_simp <;> rfl
theorem P3_keeps_main_arg5 (W : Valuation τ sig (Elt F)) :
    after P3 W (Proc.devRef .tc main_arg5) = W (Proc.devRef .tc main_arg5) := by
  unfold P3
  after_results_simp <;> rfl
theorem P3_keeps_main_arg6 (W : Valuation τ sig (Elt F)) :
    after P3 W (Proc.devRef .tc main_arg6) = W (Proc.devRef .tc main_arg6) := by
  unfold P3
  after_results_simp <;> rfl
theorem P3_keeps_main_arg7 (W : Valuation τ sig (Elt F)) :
    after P3 W (Proc.devRef .tc main_arg7) = W (Proc.devRef .tc main_arg7) := by
  unfold P3
  after_results_simp <;> rfl

/-- What the stretch leaves as it found it: the arguments. -/
theorem P4_keeps_main_arg0 (W : Valuation τ sig (Elt F)) :
    after P4 W (Proc.devRef .tc main_arg0) = W (Proc.devRef .tc main_arg0) := by
  unfold P4
  after_results_simp <;> rfl
theorem P4_keeps_main_arg1 (W : Valuation τ sig (Elt F)) :
    after P4 W (Proc.devRef .tc main_arg1) = W (Proc.devRef .tc main_arg1) := by
  unfold P4
  after_results_simp <;> rfl
theorem P4_keeps_main_arg2 (W : Valuation τ sig (Elt F)) :
    after P4 W (Proc.devRef .tc main_arg2) = W (Proc.devRef .tc main_arg2) := by
  unfold P4
  after_results_simp <;> rfl
theorem P4_keeps_main_arg3 (W : Valuation τ sig (Elt F)) :
    after P4 W (Proc.devRef .tc main_arg3) = W (Proc.devRef .tc main_arg3) := by
  unfold P4
  after_results_simp <;> rfl
theorem P4_keeps_main_arg4 (W : Valuation τ sig (Elt F)) :
    after P4 W (Proc.devRef .tc main_arg4) = W (Proc.devRef .tc main_arg4) := by
  unfold P4
  after_results_simp <;> rfl
theorem P4_keeps_main_arg5 (W : Valuation τ sig (Elt F)) :
    after P4 W (Proc.devRef .tc main_arg5) = W (Proc.devRef .tc main_arg5) := by
  unfold P4
  after_results_simp <;> rfl
theorem P4_keeps_main_arg6 (W : Valuation τ sig (Elt F)) :
    after P4 W (Proc.devRef .tc main_arg6) = W (Proc.devRef .tc main_arg6) := by
  unfold P4
  after_results_simp <;> rfl
theorem P4_keeps_main_arg7 (W : Valuation τ sig (Elt F)) :
    after P4 W (Proc.devRef .tc main_arg7) = W (Proc.devRef .tc main_arg7) := by
  unfold P4
  after_results_simp <;> rfl

/-! ## The whole line -/

/-- After the whole line each argument is as it was. -/
theorem ops_keeps_main_arg0 (W : Valuation τ sig (Elt F)) :
    after ops W (Proc.devRef .tc main_arg0) = W (Proc.devRef .tc main_arg0) := by
  rw [ops_eq, after_append, after_append, after_append, after_append,
    P4_keeps_main_arg0, P3_keeps_main_arg0, P2_keeps_main_arg0, P1_keeps_main_arg0, P0_keeps_main_arg0]
theorem ops_keeps_main_arg1 (W : Valuation τ sig (Elt F)) :
    after ops W (Proc.devRef .tc main_arg1) = W (Proc.devRef .tc main_arg1) := by
  rw [ops_eq, after_append, after_append, after_append, after_append,
    P4_keeps_main_arg1, P3_keeps_main_arg1, P2_keeps_main_arg1, P1_keeps_main_arg1, P0_keeps_main_arg1]
theorem ops_keeps_main_arg2 (W : Valuation τ sig (Elt F)) :
    after ops W (Proc.devRef .tc main_arg2) = W (Proc.devRef .tc main_arg2) := by
  rw [ops_eq, after_append, after_append, after_append, after_append,
    P4_keeps_main_arg2, P3_keeps_main_arg2, P2_keeps_main_arg2, P1_keeps_main_arg2, P0_keeps_main_arg2]
theorem ops_keeps_main_arg3 (W : Valuation τ sig (Elt F)) :
    after ops W (Proc.devRef .tc main_arg3) = W (Proc.devRef .tc main_arg3) := by
  rw [ops_eq, after_append, after_append, after_append, after_append,
    P4_keeps_main_arg3, P3_keeps_main_arg3, P2_keeps_main_arg3, P1_keeps_main_arg3, P0_keeps_main_arg3]
theorem ops_keeps_main_arg4 (W : Valuation τ sig (Elt F)) :
    after ops W (Proc.devRef .tc main_arg4) = W (Proc.devRef .tc main_arg4) := by
  rw [ops_eq, after_append, after_append, after_append, after_append,
    P4_keeps_main_arg4, P3_keeps_main_arg4, P2_keeps_main_arg4, P1_keeps_main_arg4, P0_keeps_main_arg4]
theorem ops_keeps_main_arg5 (W : Valuation τ sig (Elt F)) :
    after ops W (Proc.devRef .tc main_arg5) = W (Proc.devRef .tc main_arg5) := by
  rw [ops_eq, after_append, after_append, after_append, after_append,
    P4_keeps_main_arg5, P3_keeps_main_arg5, P2_keeps_main_arg5, P1_keeps_main_arg5, P0_keeps_main_arg5]
theorem ops_keeps_main_arg6 (W : Valuation τ sig (Elt F)) :
    after ops W (Proc.devRef .tc main_arg6) = W (Proc.devRef .tc main_arg6) := by
  rw [ops_eq, after_append, after_append, after_append, after_append,
    P4_keeps_main_arg6, P3_keeps_main_arg6, P2_keeps_main_arg6, P1_keeps_main_arg6, P0_keeps_main_arg6]
theorem ops_keeps_main_arg7 (W : Valuation τ sig (Elt F)) :
    after ops W (Proc.devRef .tc main_arg7) = W (Proc.devRef .tc main_arg7) := by
  rw [ops_eq, after_append, after_append, after_append, after_append,
    P4_keeps_main_arg7, P3_keeps_main_arg7, P2_keeps_main_arg7, P1_keeps_main_arg7, P0_keeps_main_arg7]

/-- After the whole line the result buffer holds the network's function of the eight arguments. -/
theorem ops_out (W : Valuation τ sig (Elt F)) :
    after ops W (Proc.devRef .tc main_v96)
      = out (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_eq, after_append, after_append, after_append, after_append]
  rw [P4_head, P3_layer, P3_keeps_main_arg6, P3_keeps_main_arg7]
  rw [P2_src, P2_dst, P2_dinv, P2_dot, P2_keeps_main_arg5, P2_keeps_main_arg6, P2_keeps_main_arg7]
  rw [P1_keeps_main_v1, P1_keeps_main_v3, P1_layer, P1_keeps_main_arg4, P1_keeps_main_arg5, P1_keeps_main_arg6, P1_keeps_main_arg7]
  rw [P0_srcRow, P0_dstRow, P0_src, P0_dst, P0_dinv, P0_dot, P0_keeps_main_arg3, P0_keeps_main_arg4, P0_keeps_main_arg5,
    P0_keeps_main_arg6, P0_keeps_main_arg7]
  rw [← src2T_eq, ← dst2T_eq]
  rfl

/-! ## The run -/

/-- On every device, from any memory with zero counters: every weakly fair execution of the reference program ends with
    its result at the network's function of the eight arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v96)
          = out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v96).trans (ops_out (launchContents m c)),
      (h c main_arg0).trans (ops_keeps_main_arg0 (launchContents m c)),
      (h c main_arg1).trans (ops_keeps_main_arg1 (launchContents m c)),
      (h c main_arg2).trans (ops_keeps_main_arg2 (launchContents m c)),
      (h c main_arg3).trans (ops_keeps_main_arg3 (launchContents m c)),
      (h c main_arg4).trans (ops_keeps_main_arg4 (launchContents m c)),
      (h c main_arg5).trans (ops_keeps_main_arg5 (launchContents m c)),
      (h c main_arg6).trans (ops_keeps_main_arg6 (launchContents m c)),
      (h c main_arg7).trans (ops_keeps_main_arg7 (launchContents m c))⟩)
    (run_seq scopedRefs_eq scopedSems_eq defs main (fun _ => ops) main_eq (fun _ => ops_sub) m ρ)

end Cert.ReferenceIdeal.RefStretch

end
-- ==== Proof.RefOps.lean ====
/-
  The reference's dense operations, read entry by entry over the extended reals.

  Each theorem says that a whole-array term built from host operations — a matrix product, a row-wise bias followed by
  clipping at zero, the logarithm of a row-wise softmax — is the array whose entry (r, j) is the corresponding function
  of Cert.Spec. The proofs read every operation at one index: a product of matrices is the sum over the 128 inner
  coordinates, a broadcast reads its operand at the coordinates it keeps, a reduction over the columns is a fold or a
  sum over the ten coordinates of the row.
-/
import Idealize.ShloMosaic.Lib.ValueIdx
import Idealize.ShloMosaic.Lib.Pipeline.Value
import Idealize.ShloMosaic.Lib.ValueLayout
import Idealize.ShloMosaic.PureOps.Ideal.Laws
import proofs.«129509_j463856468484_1_alg».proof.Proof.Gen.ReferenceIdeal
import proofs.«129509_j463856468484_1_alg».proof.Proof.Spec

noncomputable section

open scoped BigOperators

namespace Cert.ReferenceIdeal.RefOps

open Idealize.ShloMosaic Idealize.ShloMosaic.ValueIdx
open Cert.ReferenceIdeal Cert.ReferenceIdeal.Gen

/-! ## A product with a 128 × 128 matrix -/

/-- The left operand's row coordinate is the output's row … -/
theorem lhs128_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
/-- … and its column coordinate is the inner coordinate. -/
theorem lhs128_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
/-- The right operand's row coordinate is the inner coordinate … -/
theorem rhs128_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
/-- … and its column coordinate is the output's column. -/
theorem rhs128_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of a 50000 × 128 array with a 128 × 128 matrix has, at (p, q), the sum over the inner coordinate k of
    l (p, k) · r (k, q). -/
theorem dot128_eq (l : FVec Ideal S50000x128 .f32) (r : FVec Ideal S128x128 .f32) :
    Host.dotGeneral dot_S50000x128_S128x128_S50000x128_1_0_0_1_n_n none l r = Cert.Spec.arr2 (Cert.Spec.matProd l r) := by
  funext i
  obtain ⟨p, q, rfl⟩ : ∃ (p : Fin 50000) (q : Fin 128), i = ix2 p q := ⟨i 0, i 1, eq_ix2 i⟩
  rw [Cert.Spec.arr2_ix2]
  unfold Cert.Spec.matProd
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q)
      ((contrEquiv1 dot_S50000x128_S128x128_S50000x128_1_0_0_1_n_n 128 rfl rfl).symm k) = ix2 p k :=
    funext fun a => Fin.ext (by
      match a with
      | ⟨0, _⟩ => exact lhs128_0 _ _
      | ⟨1, _⟩ => exact (lhs128_1 _ _).trans hk)
  have er : dot_S50000x128_S128x128_S50000x128_1_0_0_1_n_n.rhsIdx (ix2 p q)
      ((contrEquiv1 dot_S50000x128_S128x128_S50000x128_1_0_0_1_n_n 128 rfl rfl).symm k) = ix2 k q :=
    funext fun a => Fin.ext (by
      match a with
      | ⟨0, _⟩ => exact (rhs128_0 _ _).trans hk
      | ⟨1, _⟩ => exact rhs128_1 _ _)
  rw [el, er]

/-! ## A product with a 128 × 10 matrix -/

/-- The left operand's row coordinate is the output's row … -/
theorem lhs10_0 (i : S50000x10.Idx) (q : dot_S50000x128_S128x10_S50000x10_1_0_0_1_n_n.contr.Idx) :
    (dot_S50000x128_S128x10_S50000x10_1_0_0_1_n_n.lhsIdx i q 0).val = (i 0).val := by
  unfold DotDims.lhsIdx
  rw [dif_neg (show ¬(0 : Fin S50000x128.rank) ∈ dot_S50000x128_S128x10_S50000x10_1_0_0_1_n_n.lhsBatch by decide),
    dif_pos (show (0 : Fin S50000x128.rank) ∈ dot_S50000x128_S128x10_S50000x10_1_0_0_1_n_n.lhsNonContracting by decide)]
  rfl
/-- … and its column coordinate is the inner coordinate. -/
theorem lhs10_1 (i : S50000x10.Idx) (q : dot_S50000x128_S128x10_S50000x10_1_0_0_1_n_n.contr.Idx) :
    (dot_S50000x128_S128x10_S50000x10_1_0_0_1_n_n.lhsIdx i q 1).val = (q ⟨0, by decide⟩).val :=
  dot_S50000x128_S128x10_S50000x10_1_0_0_1_n_n.lhsIdx_val_of_single rfl i q
/-- The right operand's row coordinate is the inner coordinate … -/
theorem rhs10_0 (i : S50000x10.Idx) (q : dot_S50000x128_S128x10_S50000x10_1_0_0_1_n_n.contr.Idx) :
    (dot_S50000x128_S128x10_S50000x10_1_0_0_1_n_n.rhsIdx i q 0).val = (q ⟨0, by decide⟩).val :=
  dot_S50000x128_S128x10_S50000x10_1_0_0_1_n_n.rhsIdx_val_of_single rfl i q
/-- … and its column coordinate is the output's column. -/
theorem rhs10_1 (i : S50000x10.Idx) (q : dot_S50000x128_S128x10_S50000x10_1_0_0_1_n_n.contr.Idx) :
    (dot_S50000x128_S128x10_S50000x10_1_0_0_1_n_n.rhsIdx i q 1).val = (i 1).val := by
  unfold DotDims.rhsIdx
  rw [dif_neg (show ¬(1 : Fin S128x10.rank) ∈ dot_S50000x128_S128x10_S50000x10_1_0_0_1_n_n.rhsBatch by decide),
    dif_pos (show (1 : Fin S128x10.rank) ∈ dot_S50000x128_S128x10_S50000x10_1_0_0_1_n_n.rhsNonContracting by decide)]
  rfl

/-- The product of a 50000 × 128 array with a 128 × 10 matrix has, at (p, q), the sum over the inner coordinate k of
    l (p, k) · r (k, q). -/
theorem dot10_eq (l : FVec Ideal S50000x128 .f32) (r : FVec Ideal S128x10 .f32) :
    Host.dotGeneral dot_S50000x128_S128x10_S50000x10_1_0_0_1_n_n none l r = Cert.Spec.arr2 (Cert.Spec.matProd l r) := by
  funext i
  obtain ⟨p, q, rfl⟩ : ∃ (p : Fin 50000) (q : Fin 10), i = ix2 p q := ⟨i 0, i 1, eq_ix2 i⟩
  rw [Cert.Spec.arr2_ix2]
  unfold Cert.Spec.matProd
  simp only [Host.dotGeneral]
  rw [Ideal.dotGeneral_apply, ← Equiv.sum_comp (contrEquiv1 dot_S50000x128_S128x10_S50000x10_1_0_0_1_n_n 128 rfl rfl).symm]
  refine Finset.sum_congr rfl fun k _ => ?_
  have hk := contrEquiv1_symm_val dot_S50000x128_S128x10_S50000x10_1_0_0_1_n_n 128 rfl rfl k
  have el : dot_S50000x128_S128x10_S50000x10_1_0_0_1_n_n.lhsIdx (ix2 p q)
      ((contrEquiv1 dot_S50000x128_S128x10_S50000x10_1_0_0_1_n_n 128 rfl rfl).symm k) = ix2 p k :=
    funext fun a => Fin.ext (by
      match a with
      | ⟨0, _⟩ => exact lhs10_0 _ _
      | ⟨1, _⟩ => exact (lhs10_1 _ _).trans hk)
  have er : dot_S50000x128_S128x10_S50000x10_1_0_0_1_n_n.rhsIdx (ix2 p q)
      ((contrEquiv1 dot_S50000x128_S128x10_S50000x10_1_0_0_1_n_n 128 rfl rfl).symm k) = ix2 k q :=
    funext fun a => Fin.ext (by
      match a with
      | ⟨0, _⟩ => exact (rhs10_0 _ _).trans hk
      | ⟨1, _⟩ => exact rhs10_1 _ _)
  rw [el, er]

/-! ## A bias along the rows, and clipping at zero -/

/-- A vector of 128 entries laid along every row of a 50000 × 128 array reads, at (p, q), its entry q. -/
theorem rowBias128_apply (b : FVec Ideal S128 .f32) (p : Fin 50000) (q : Fin 128) :
    broadcastInDim S50000x128 ![0, 1] bcast_S1x128_S50000x128_0_1 (broadcastInDim S1x128 ![1] bcast_S128_S1x128_1 b) (ix2 p q)
      = b (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero word spread over a 50000 × 128 array reads 0 everywhere. -/
theorem zeros128_apply (i : S50000x128.Idx) :
    broadcastInDim S50000x128 ![] bcast_S_S50000x128 (constant (F := Ideal) S_ .f32 0x00000000#32) i = 0 := by
  refine (broadcastInDim_apply _ bcast_S_S50000x128 _ i ix0 (fun a => a.elim0)).trans ?_
  rw [constant_apply, Ideal.ofBits_zero_f32]

/-- Adding the bias along the rows and taking the maximum with zero gives, at (p, q), max (x (p, q) + b q) 0. -/
theorem biasRelu_eq (x : FVec Ideal S50000x128 .f32) (b : FVec Ideal S128 .f32) :
    maximumf (addf x (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = Cert.Spec.arr2 (Cert.Spec.biasRelu x (fun j => b (ix1 j))) := by
  funext i
  obtain ⟨p, q, rfl⟩ : ∃ (p : Fin 50000) (q : Fin 128), i = ix2 p q := ⟨i 0, i 1, eq_ix2 i⟩
  rw [Cert.Spec.arr2_ix2, maximumf_apply, addf_apply, rowBias128_apply, zeros128_apply]
  rfl

/-! ## The logarithm of the softmax of each row of ten logits -/

/-- A vector of 10 entries laid along every row of a 50000 × 10 array reads, at (p, q), its entry q. -/
theorem rowBias10_apply (b : FVec Ideal S10 .f32) (p : Fin 50000) (q : Fin 10) :
    broadcastInDim S50000x10 ![0, 1] bcast_S1x10_S50000x10_0_1 (broadcastInDim S1x10 ![1] bcast_S10_S1x10_1 b) (ix2 p q)
      = b (ix1 q) := by
  refine (broadcastInDim_apply _ bcast_S1x10_S50000x10_0_1 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans ?_
  exact broadcastInDim_apply _ bcast_S10_S1x10_1 b (ix2 (0 : Fin 1) q) (ix1 q) (fun a => match a with
    | ⟨0, _⟩ => by show q.val = if (10 : Nat) = 1 then 0 else q.val; rw [if_neg (by decide)])

/-- A vector of 50000 entries stood up as a column reads, at (p, 0), its entry p. -/
theorem column_apply (v : FVec Ideal S50000 .f32) (p : Fin 50000) :
    broadcastInDim S50000x1 ![0] bcast_S50000_S50000x1_0 v (ix2 p (0 : Fin 1)) = v (ix1 p) :=
  broadcastInDim_apply _ bcast_S50000_S50000x1_0 v (ix2 p (0 : Fin 1)) (ix1 p) (fun a => match a with
    | ⟨0, _⟩ => by show p.val = if (50000 : Nat) = 1 then 0 else p.val; rw [if_neg (by decide)])

/-- A column repeated across the ten columns reads, at (p, q), the column's entry (p, 0). -/
theorem acrossColumns_apply (c : FVec Ideal S50000x1 .f32) (p : Fin 50000) (q : Fin 10) :
    broadcastInDim S50000x10 ![0, 1] bcast_S50000x1_S50000x10_0_1 c (ix2 p q) = c (ix2 p (0 : Fin 1)) :=
  broadcastInDim_apply _ bcast_S50000x1_S50000x10_0_1 c (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- Row p with the column coordinate k put back is the index (p, k). -/
theorem lift_row (h : S50000x10.Reduces [1] S50000) (p : Fin 50000) (k : Fin (S50000x10.size 1)) :
    h.lift (ix1 p) k = ix2 p (⟨k.val, k.isLt⟩ : Fin 10) := by
  funext c; apply Fin.ext
  match c with
  | ⟨0, _⟩ => rfl
  | ⟨1, _⟩ => rfl

/-- The maximum of −∞ with the reduction by max, from −∞, over the columns: at row p, the largest of the row's ten entries. -/
theorem rowMax_apply (L : FVec Ideal S50000x10 .f32) (p : Fin 50000) :
    (maximumf (broadcastInDim S50000 ![] bcast_S_S50000 (constant (F := Ideal) S_ .f32 0xFF800000#32)) (Host.reduce FloatOps.maximumf L (constant (F := Ideal) S_ .f32 0xFF800000#32) reducesTo_S50000x10_S50000_d1 h_S_)) (ix1 p)
      = Cert.Spec.rowMax (fun j => L (ix2 p j)) := by
  have h : S50000x10.Reduces [1] S50000 := by decide
  have hb : ∀ y : EReal, max (Ideal.ofBits .f32 0xFF800000#32) y = y := fun y => by simp [Ideal.ofBits, Ideal.ieee]
  have e1 : broadcastInDim S50000 ![] bcast_S_S50000 (constant (F := Ideal) S_ .f32 0xFF800000#32) (ix1 p) = Ideal.ofBits .f32 0xFF800000#32 :=
    (broadcastInDim_apply _ bcast_S_S50000 _ (ix1 p) ix0 (fun a => a.elim0)).trans (constant_apply _ _)
  rw [maximumf_apply, e1, hb, Host.reduce_eq_fold_single FloatOps.maximumf L _ reducesTo_S50000x10_S50000_d1 h h_S_]
  have hf : (L ∘ h.lift (ix1 p)) = fun k : Fin 10 => L (ix2 p k) := funext fun k => congrArg L (lift_row h p k)
  unfold Cert.Spec.rowMax
  exact congrArg (fun f => Finset.fold max (Ideal.ofBits .f32 0xFF800000#32) f (Finset.univ : Finset (Fin 10))) hf

/-- The sum, from the zero word, over the columns: at row p, the sum of the row's ten entries. -/
theorem rowSum_apply (E : FVec Ideal S50000x10 .f32) (p : Fin 50000) :
    (Host.reduceAdd E (constant (F := Ideal) S_ .f32 0x00000000#32) reducesTo_S50000x10_S50000_d1 h_S_) (ix1 p)
      = ∑ j : Fin 10, E (ix2 p j) := by
  have h : S50000x10.Reduces [1] S50000 := by decide
  simp only [Host.reduceAdd, Ideal.hostReduceAdd_def]
  rw [Ideal.hostReduceAdd_single reducesTo_S50000x10_S50000_d1 h, constant_apply, Ideal.ofBits_zero_f32, zero_add]
  exact Finset.sum_congr rfl fun k _ => congrArg E (lift_row h p k)

/-- Subtracting the row's largest entry: at (p, q), L (p, q) minus the largest of row p. -/
theorem shifted_apply (L : FVec Ideal S50000x10 .f32) (p : Fin 50000) (q : Fin 10) :
    (subf L (broadcastInDim S50000x10 ![0, 1] bcast_S50000x1_S50000x10_0_1 (broadcastInDim S50000x1 ![0] bcast_S50000_S50000x1_0 (maximumf (broadcastInDim S50000 ![] bcast_S_S50000 (constant (F := Ideal) S_ .f32 0xFF800000#32)) (Host.reduce FloatOps.maximumf L (constant (F := Ideal) S_ .f32 0xFF800000#32) reducesTo_S50000x10_S50000_d1 h_S_))))) (ix2 p q)
      = L (ix2 p q) - Cert.Spec.rowMax (fun j => L (ix2 p j)) := by
  rw [subf_apply, acrossColumns_apply, column_apply, rowMax_apply]

/-- Subtracting the logarithm of the row's sum of exponentials: at (p, q), Z (p, q) − log (∑ j, exp (Z (p, j))). -/
theorem logSumExp_apply (Z : FVec Ideal S50000x10 .f32) (p : Fin 50000) (q : Fin 10) :
    (subf Z (broadcastInDim S50000x10 ![0, 1] bcast_S50000x1_S50000x10_0_1 (Host.log (broadcastInDim S50000x1 ![0] bcast_S50000_S50000x1_0 (Host.reduceAdd (Host.exp Z) (constant (F := Ideal) S_ .f32 0x00000000#32) reducesTo_S50000x10_S50000_d1 h_S_))))) (ix2 p q)
      = Z (ix2 p q) - Ideal.log (∑ j : Fin 10, Ideal.exp (Z (ix2 p j))) := by
  rw [subf_apply, acrossColumns_apply]
  show _ - FloatOps.hostUnary .log ((broadcastInDim S50000x1 ![0] bcast_S50000_S50000x1_0 (Host.reduceAdd (Host.exp Z) (constant (F := Ideal) S_ .f32 0x00000000#32) reducesTo_S50000x10_S50000_d1 h_S_)) (ix2 p (0 : Fin 1))) = _
  rw [column_apply, rowSum_apply, Ideal.hostUnary_log_def]
  rfl

/-- The logarithm of the softmax of the rows of any 50000 × 10 array of logits. -/
theorem logSoftmax_eq (L : FVec Ideal S50000x10 .f32) :
    subf (subf L (broadcastInDim S50000x10 ![0, 1] bcast_S50000x1_S50000x10_0_1 (broadcastInDim S50000x1 ![0] bcast_S50000_S50000x1_0 (maximumf (broadcastInDim S50000 ![] bcast_S_S50000 (constant (F := Ideal) S_ .f32 0xFF800000#32)) (Host.reduce FloatOps.maximumf L (constant (F := Ideal) S_ .f32 0xFF800000#32) reducesTo_S50000x10_S50000_d1 h_S_))))) (broadcastInDim S50000x10 ![0, 1] bcast_S50000x1_S50000x10_0_1 (Host.log (broadcastInDim S50000x1 ![0] bcast_S50000_S50000x1_0 (Host.reduceAdd (Host.exp (subf L (broadcastInDim S50000x10 ![0, 1] bcast_S50000x1_S50000x10_0_1 (broadcastInDim S50000x1 ![0] bcast_S50000_S50000x1_0 (maximumf (broadcastInDim S50000 ![] bcast_S_S50000 (constant (F := Ideal) S_ .f32 0xFF800000#32)) (Host.reduce FloatOps.maximumf L (constant (F := Ideal) S_ .f32 0xFF800000#32) reducesTo_S50000x10_S50000_d1 h_S_)))))) (constant (F := Ideal) S_ .f32 0x00000000#32) reducesTo_S50000x10_S50000_d1 h_S_))))
      = Cert.Spec.arr2 (fun p j => Cert.Spec.logSoftmaxRow (fun j' => L (ix2 p j')) j) := by
  funext i
  obtain ⟨p, q, rfl⟩ : ∃ (p : Fin 50000) (q : Fin 10), i = ix2 p q := ⟨i 0, i 1, eq_ix2 i⟩
  rw [Cert.Spec.arr2_ix2, logSumExp_apply, shifted_apply]
  unfold Cert.Spec.logSoftmaxRow
  refine congrArg (fun s => _ - Ideal.log s) (Finset.sum_congr rfl fun j _ => ?_)
  rw [shifted_apply]

/-- The head: the product with the last matrix, the bias along the rows, and the logarithm of each row's softmax. -/
theorem head_eq (x : FVec Ideal S50000x128 .f32) (w : FVec Ideal S128x10 .f32) (b : FVec Ideal S10 .f32) :
    subf (subf (addf (Host.dotGeneral dot_S50000x128_S128x10_S50000x10_1_0_0_1_n_n none x w) (broadcastInDim S50000x10 ![0, 1] bcast_S1x10_S50000x10_0_1 (broadcastInDim S1x10 ![1] bcast_S10_S1x10_1 b))) (broadcastInDim S50000x10 ![0, 1] bcast_S50000x1_S50000x10_0_1 (broadcastInDim S50000x1 ![0] bcast_S50000_S50000x1_0 (maximumf (broadcastInDim S50000 ![] bcast_S_S50000 (constant (F := Ideal) S_ .f32 0xFF800000#32)) (Host.reduce FloatOps.maximumf (addf (Host.dotGeneral dot_S50000x128_S128x10_S50000x10_1_0_0_1_n_n none x w) (broadcastInDim S50000x10 ![0, 1] bcast_S1x10_S50000x10_0_1 (broadcastInDim S1x10 ![1] bcast_S10_S1x10_1 b))) (constant (F := Ideal) S_ .f32 0xFF800000#32) reducesTo_S50000x10_S50000_d1 h_S_))))) (broadcastInDim S50000x10 ![0, 1] bcast_S50000x1_S50000x10_0_1 (Host.log (broadcastInDim S50000x1 ![0] bcast_S50000_S50000x1_0 (Host.reduceAdd (Host.exp (subf (addf (Host.dotGeneral dot_S50000x128_S128x10_S50000x10_1_0_0_1_n_n none x w) (broadcastInDim S50000x10 ![0, 1] bcast_S1x10_S50000x10_0_1 (broadcastInDim S1x10 ![1] bcast_S10_S1x10_1 b))) (broadcastInDim S50000x10 ![0, 1] bcast_S50000x1_S50000x10_0_1 (broadcastInDim S50000x1 ![0] bcast_S50000_S50000x1_0 (maximumf (broadcastInDim S50000 ![] bcast_S_S50000 (constant (F := Ideal) S_ .f32 0xFF800000#32)) (Host.reduce FloatOps.maximumf (addf (Host.dotGeneral dot_S50000x128_S128x10_S50000x10_1_0_0_1_n_n none x w) (broadcastInDim S50000x10 ![0, 1] bcast_S1x10_S50000x10_0_1 (broadcastInDim S1x10 ![1] bcast_S10_S1x10_1 b))) (constant (F := Ideal) S_ .f32 0xFF800000#32) reducesTo_S50000x10_S50000_d1 h_S_)))))) (constant (F := Ideal) S_ .f32 0x00000000#32) reducesTo_S50000x10_S50000_d1 h_S_))))
      = Cert.Spec.arr2 (Cert.Spec.head x w (fun j => b (ix1 j))) := by
  refine (logSoftmax_eq _).trans ?_
  refine congrArg Cert.Spec.arr2 (funext fun p => funext fun j => ?_)
  unfold Cert.Spec.head
  refine congrArg (fun l => Cert.Spec.logSoftmaxRow l j) (funext fun j' => ?_)
  rw [addf_apply, dot10_eq, Cert.Spec.arr2_ix2, rowBias10_apply]

end Cert.ReferenceIdeal.RefOps

end
-- ==== Proof.RefSpec.lean ====
/-
  The reference network is the stated network.

  The reference's stages (`Staged`) are whole-array terms of host operations; the dense ones — the product with a
  128 × 128 matrix, the bias with the clipping at zero, the head — are, entry by entry, the functions of `Cert.Spec`
  (`RefOps`). Substituting these three readings into one layer (product, aggregation along the edges, bias, clipping)
  gives `layerSpec`, and into the composition of two layers and the head gives `netSpec`: the aggregation is carried
  along unopened, the same term on both sides.
-/
import proofs.«129509_j463856468484_1_alg».proof.Proof.Staged
import proofs.«129509_j463856468484_1_alg».proof.Proof.RefOps
import proofs.«129509_j463856468484_1_alg».proof.Proof.SpecNet

noncomputable section

namespace Cert.ReferenceIdeal.RefSpec

open Cert.ReferenceIdeal Cert.ReferenceIdeal.Gen Idealize.ShloMosaic Idealize.ShloMosaic.ValueIdx
open Cert.ReferenceIdeal.Staged

/-- The product stage is the array of the entrywise sums over the inner coordinate. -/
theorem dotT_eq (l : FVec Ideal S50000x128 .f32) (r : FVec Ideal S128x128 .f32) :
    dotT (F := Ideal) l r = Cert.Spec.arr2 (Cert.Spec.matProd l r) := by
  unfold dotT; exact RefOps.dot128_eq l r

/-- The bias-and-clipping stage is the array of max (x (r, j) + b j) 0. -/
theorem brT_eq (x : FVec Ideal S50000x128 .f32) (b : FVec Ideal S128 .f32) :
    brT (F := Ideal) x b = Cert.Spec.arr2 (Cert.Spec.biasRelu x (fun j => b (ix1 j))) := by
  unfold brT; exact RefOps.biasRelu_eq x b

/-- The head stage is the array of the logarithms of the softmax of each row's logits. -/
theorem headT_eq (x : FVec Ideal S50000x128 .f32) (w : FVec Ideal S128x10 .f32) (b : FVec Ideal S10 .f32) :
    headT (F := Ideal) x w b = Cert.Spec.arr2 (Cert.Spec.head x w (fun j => b (ix1 j))) := by
  unfold headT; exact RefOps.head_eq x w b

/-- One layer of the reference is one layer of the stated network. -/
theorem layerT_eq (e : IVec S2x800000 32) (x : FVec Ideal S50000x128 .f32) (w : FVec Ideal S128x128 .f32)
    (b : FVec Ideal S128 .f32) : layerT (F := Ideal) e x w b = Cert.SpecNet.layerSpec e x w b := by
  unfold layerT Cert.SpecNet.layerSpec
  rw [brT_eq, dotT_eq]

/-- THE REFERENCE IS THE STATED NETWORK: two layers and the head, as one function of the eight arguments. -/
theorem out_eq_netSpec (a0 : FVec Ideal S50000x128 .f32) (e : IVec S2x800000 32) (a2 : FVec Ideal S128x128 .f32)
    (a3 : FVec Ideal S128 .f32) (a4 : FVec Ideal S128x128 .f32) (a5 : FVec Ideal S128 .f32)
    (a6 : FVec Ideal S128x10 .f32) (a7 : FVec Ideal S10 .f32) :
    Cert.ReferenceIdeal.Staged.out (F := Ideal) a0 e a2 a3 a4 a5 a6 a7 = Cert.SpecNet.netSpec a0 e a2 a3 a4 a5 a6 a7 := by
  unfold Cert.ReferenceIdeal.Staged.out Cert.SpecNet.netSpec
  rw [headT_eq, layerT_eq, layerT_eq]

end Cert.ReferenceIdeal.RefSpec

end
-- ==== Proof.lean ====
/-
  A two-layer graph convolution with a softmax head, computed by five tiled kernels among host gather / scatter steps, against
  the same network written with whole-array operations.

  Over the extended reals both programs compute, from node features x, an edge list, weights W1, W2, Wl and biases b1, b2, bl:
      h1 = max (A (x · W1) + b1) 0,   h2 = max (A (h1 · W2) + b2) 0,   out = logsoftmax (h2 · Wl + bl)  row by row,
  where A sums, at each node, the rows at the sources of the edges that end there (one loop per node added), each scaled by the
  product of the two end points' inverse square-root degrees. The kernel program computes each matrix product block by block
  (25 blocks of 2000 rows; at the ideal instance the change of float format before the product is the identity and the product
  into a zero accumulator is the plain sum over the 128 inner coordinates), the bias and clipping block by block, and the head
  block by block (the row maximum subtracted before the exponentials, as the reference does); the aggregation A is the same
  sequence of host operations in both programs. No law beyond reading each operation at an index is needed: the two sides are
  the same sums, in the same order, so the precondition (finite inputs) is never opened.

  The pieces: `Spec` (the three dense formulas), `Staged` (the network as staged functions of arrays, spelt with the reference's
  host operations), `SpecNet` (the whole network once, `netSpec`); the kernel program ends at `netSpec` of its arguments (`KRun`:
  its run with the result buffer named; `RegionMatmul`, `RegionBiasRelu`, `RegionHead`: each launch's output array as one function
  of its input arrays; `KHost`, `KHost14`: the host stretches; `KChain`: the fold through the ten segments); the reference ends at
  `netSpec` of its arguments (`RefRun`: its list of operations; `RefStretch`: the run read back stretch by stretch; `RefOps`,
  `RefSpec`: its dense pieces are the same formulas).
-/
import proofs.«129509_j463856468484_1_alg».proof.Defs
import proofs.«129509_j463856468484_1_alg».proof.Proof.Gen.Kernel
import proofs.«129509_j463856468484_1_alg».proof.Proof.Gen.Kernel.Skeleton
import proofs.«129509_j463856468484_1_alg».proof.Proof.Gen.Kernel.Launch
import proofs.«129509_j463856468484_1_alg».proof.Proof.Gen.Kernel.Points
import proofs.«129509_j463856468484_1_alg».proof.Proof.Gen.Kernel.Frame
import proofs.«129509_j463856468484_1_alg».proof.Proof.Gen.KernelIdeal
import proofs.«129509_j463856468484_1_alg».proof.Proof.Gen.KernelIdeal.Skeleton
import proofs.«129509_j463856468484_1_alg».proof.Proof.Gen.KernelIdeal.Launch
import proofs.«129509_j463856468484_1_alg».proof.Proof.Gen.KernelIdeal.Points
import proofs.«129509_j463856468484_1_alg».proof.Proof.Gen.KernelIdeal.Frame
import proofs.«129509_j463856468484_1_alg».proof.Proof.Gen.ReferenceIdeal
import proofs.«129509_j463856468484_1_alg».proof.Proof.Gen.Pre_finite_inputs
import proofs.«129509_j463856468484_1_alg».proof.Proof.KRun
import proofs.«129509_j463856468484_1_alg».proof.Proof.KChain
import proofs.«129509_j463856468484_1_alg».proof.Proof.RefStretch
import proofs.«129509_j463856468484_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RefStretch.ref_run m ρ)

/-- The idealization rewrote nothing: there is nothing to preserve. -/
theorem preserves : Cert.preserves_Kernel_KernelIdeal := trivial

/-- Both idealized programs end with the network's value `netSpec` of the arguments, which agree. -/
theorem algebraic : Cert.algebraic_KernelIdeal_ReferenceIdeal := by
  intro m ρ m' ρ' _ hagree
  refine ⟨fun c => Cert.SpecNet.netSpec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.kernel_value m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.RefStretch.ref_run m' ρ')
    obtain ⟨h0, h1, h2, h3, h4, h5, h6, h7⟩ := hagree c
    rw [Cert.ReferenceIdeal.RefSpec.out_eq_netSpec, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
